-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x1024 : Shape := ⟨3, ![2, 3, 1024]⟩
abbrev S3x64 : Shape := ⟨2, ![3, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S2x3x1024 : S_.BroadcastsInDim S2x3x1024 (![] : Fin 0 → Fin S2x3x1024.rank)
  reducesTo_S2x3x1024_S_d0_1_2 : S2x3x1024.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S2x3x1024 .f32) (main_arg1 : FVec F S3x64 .f32) (main_arg2 : FVec F S64 .f32) (main_arg3 : FVec F S64x8 .f32) (main_arg4 : FVec F S8 .f32) : IVec S_ 1 :=
  let main_v0 : FVec F S2x3x1024 .f32 := Host.absf main_arg0
  let main_cst : FVec F S_ .f32 := constant S_ .f32 0x7F800000#32
  let main_v1 : FVec F S2x3x1024 .f32 := broadcastInDim S2x3x1024 ![] bcast_S_S2x3x1024 main_cst
  let main_v2 : IVec S2x3x1024 1 := cmpf .olt main_v0 main_v1
  let main_c : IVec S_ 1 := constantI S_ 1 1#1
  let main_v3 : IVec S_ 1 := (fun x v => Host.reduce IntOp.andi x v reducesTo_S2x3x1024_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S2x3x1024 : Shape := ⟨3, ![2, 3, 1024]⟩
abbrev S3x64 : Shape := ⟨2, ![3, 64]⟩
abbrev S64 : Shape := ⟨1, ![64]⟩
abbrev S64x8 : Shape := ⟨2, ![64, 8]⟩
abbrev S8 : Shape := ⟨1, ![8]⟩
abbrev S2x8x1024x1024 : Shape := ⟨4, ![2, 8, 1024, 1024]⟩
abbrev S1x3x256 : Shape := ⟨3, ![1, 3, 256]⟩
abbrev S1x3x128 : Shape := ⟨3, ![1, 3, 128]⟩
abbrev S1x8x256x128 : Shape := ⟨4, ![1, 8, 256, 128]⟩
abbrev S3x256 : Shape := ⟨2, ![3, 256]⟩
abbrev S3x128 : Shape := ⟨2, ![3, 128]⟩
abbrev S64x256 : Shape := ⟨2, ![64, 256]⟩
abbrev S64x128 : Shape := ⟨2, ![64, 128]⟩
abbrev S1x64 : Shape := ⟨2, ![1, 64]⟩
abbrev S64x1 : Shape := ⟨2, ![64, 1]⟩
abbrev S1x256 : Shape := ⟨2, ![1, 256]⟩
abbrev S256 : Shape := ⟨1, ![256]⟩
abbrev S1x128 : Shape := ⟨2, ![1, 128]⟩
abbrev S128 : Shape := ⟨1, ![128]⟩
abbrev S64x1x128 : Shape := ⟨3, ![64, 1, 128]⟩
abbrev S64x256x1 : Shape := ⟨3, ![64, 256, 1]⟩
abbrev S64x256x128 : Shape := ⟨3, ![64, 256, 128]⟩
abbrev S64x1x1 : Shape := ⟨3, ![64, 1, 1]⟩
abbrev S256x128 : Shape := ⟨2, ![256, 128]⟩
abbrev S1 : Shape := ⟨1, ![1]⟩
abbrev S1x1x256x128 : Shape := ⟨4, ![1, 1, 256, 128]⟩

abbrev nBuf : Space → Nat
  | .hbm => 6
  | .vmem => 10
  | .smem => 0
  | _ => 0

abbrev bufTy : (tb : Table) → Fin (tcTables nBuf tb) → BufTy
  | .hbm, ⟨0, _⟩ => ⟨S2x3x1024, .f32⟩
  | .hbm, ⟨1, _⟩ => ⟨S3x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S2x8x1024x1024, .f32⟩
  | .local _ .vmem, ⟨0, _⟩ => ⟨S1x3x256, .f32⟩
  | .local _ .vmem, ⟨1, _⟩ => ⟨S1x3x256, .f32⟩
  | .local _ .vmem, ⟨2, _⟩ => ⟨S1x3x128, .f32⟩
  | .local _ .vmem, ⟨3, _⟩ => ⟨S1x3x128, .f32⟩
  | .local _ .vmem, ⟨4, _⟩ => ⟨S3x64, .f32⟩
  | .local _ .vmem, ⟨5, _⟩ => ⟨S64, .f32⟩
  | .local _ .vmem, ⟨6, _⟩ => ⟨S64x8, .f32⟩
  | .local _ .vmem, ⟨7, _⟩ => ⟨S8, .f32⟩
  | .local _ .vmem, ⟨8, _⟩ => ⟨S1x8x256x128, .f32⟩
  | .local _ .vmem, ⟨9, _⟩ => ⟨S1x8x256x128, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  slices_S3x64_o0_0_S1x64 : S3x64.Slices ![0, 0] S1x64
  shapeCasts_S1x64_S64 : S1x64.ShapeCasts S64
  shapeCasts_S64_S64x1 : S64.ShapeCasts S64x1
  slices_S3x256_o0_0_S1x256 : S3x256.Slices ![0, 0] S1x256
  shapeCasts_S1x256_S256 : S1x256.ShapeCasts S256
  shapeCasts_S256_S1x256 : S256.ShapeCasts S1x256
  broadcasts_S64x1_S64x256 : S64x1.Broadcasts S64x256
  broadcasts_S1x256_S64x256 : S1x256.Broadcasts S64x256
  slices_S3x128_o0_0_S1x128 : S3x128.Slices ![0, 0] S1x128
  shapeCasts_S1x128_S128 : S1x128.ShapeCasts S128
  shapeCasts_S128_S1x128 : S128.ShapeCasts S1x128
  broadcasts_S64x1_S64x128 : S64x1.Broadcasts S64x128
  broadcasts_S1x128_S64x128 : S1x128.Broadcasts S64x128
  slices_S3x64_o1_0_S1x64 : S3x64.Slices ![1, 0] S1x64
  slices_S3x256_o1_0_S1x256 : S3x256.Slices ![1, 0] S1x256
  slices_S3x128_o1_0_S1x128 : S3x128.Slices ![1, 0] S1x128
  slices_S3x64_o2_0_S1x64 : S3x64.Slices ![2, 0] S1x64
  slices_S3x256_o2_0_S1x256 : S3x256.Slices ![2, 0] S1x256
  slices_S3x128_o2_0_S1x128 : S3x128.Slices ![2, 0] S1x128
  shapeCasts_S64x128_S64x1x128 : S64x128.ShapeCasts S64x1x128
  shapeCasts_S64x256_S64x256x1 : S64x256.ShapeCasts S64x256x1
  broadcasts_S64x1x128_S64x256x128 : S64x1x128.Broadcasts S64x256x128
  broadcasts_S64x256x1_S64x256x128 : S64x256x1.Broadcasts S64x256x128
  shapeCasts_S64_S64x1x1 : S64.ShapeCasts S64x1x1
  broadcasts_S64x1x1_S64x256x128 : S64x1x1.Broadcasts S64x256x128
  slices_S64x8_o0_0_S64x1 : S64x8.Slices ![0, 0] S64x1
  shapeCasts_S64x1_S64 : S64x1.ShapeCasts S64
  reduces_S64x256x128_S256x128 : S64x256x128.Reduces [0] S256x128
  slices_S8_o0_S1 : S8.Slices ![0] S1
  inpos_S1_p0 : ∀ a, (![0] : Fin 1 → Nat) a < S1.size a
  inb_S1x8x256x128_S1x1x256x128_0_0_0_0 : ∀ a, (![0, 0, 0, 0] : Fin 4 → Nat) a + S1x1x256x128.size a ≤ S1x8x256x128.size a
  h_S1x1x256x128 : 0 < S1x1x256x128.numel
  shapeCasts_S1x1x256x128_S256x128 : S1x1x256x128.ShapeCasts S256x128
  shapeCasts_S256x128_S1x1x256x128 : S256x128.ShapeCasts S1x1x256x128
  slices_S64x8_o0_1_S64x1 : S64x8.Slices ![0, 1] S64x1
  slices_S8_o1_S1 : S8.Slices ![1] S1
  inb_S1x8x256x128_S1x1x256x128_0_1_0_0 : ∀ a, (![0, 1, 0, 0] : Fin 4 → Nat) a + S1x1x256x128.size a ≤ S1x8x256x128.size a
  slices_S64x8_o0_2_S64x1 : S64x8.Slices ![0, 2] S64x1
  slices_S8_o2_S1 : S8.Slices ![2] S1
  inb_S1x8x256x128_S1x1x256x128_0_2_0_0 : ∀ a, (![0, 2, 0, 0] : Fin 4 → Nat) a + S1x1x256x128.size a ≤ S1x8x256x128.size a
  slices_S64x8_o0_3_S64x1 : S64x8.Slices ![0, 3] S64x1
  slices_S8_o3_S1 : S8.Slices ![3] S1
  inb_S1x8x256x128_S1x1x256x128_0_3_0_0 : ∀ a, (![0, 3, 0, 0] : Fin 4 → Nat) a + S1x1x256x128.size a ≤ S1x8x256x128.size a
  slices_S64x8_o0_4_S64x1 : S64x8.Slices ![0, 4] S64x1
  slices_S8_o4_S1 : S8.Slices ![4] S1
  inb_S1x8x256x128_S1x1x256x128_0_4_0_0 : ∀ a, (![0, 4, 0, 0] : Fin 4 → Nat) a + S1x1x256x128.size a ≤ S1x8x256x128.size a
  slices_S64x8_o0_5_S64x1 : S64x8.Slices ![0, 5] S64x1
  slices_S8_o5_S1 : S8.Slices ![5] S1
  inb_S1x8x256x128_S1x1x256x128_0_5_0_0 : ∀ a, (![0, 5, 0, 0] : Fin 4 → Nat) a + S1x1x256x128.size a ≤ S1x8x256x128.size a
  slices_S64x8_o0_6_S64x1 : S64x8.Slices ![0, 6] S64x1
  slices_S8_o6_S1 : S8.Slices ![6] S1
  inb_S1x8x256x128_S1x1x256x128_0_6_0_0 : ∀ a, (![0, 6, 0, 0] : Fin 4 → Nat) a + S1x1x256x128.size a ≤ S1x8x256x128.size a
  slices_S64x8_o0_7_S64x1 : S64x8.Slices ![0, 7] S64x1
  slices_S8_o7_S1 : S8.Slices ![7] S1
  inb_S1x8x256x128_S1x1x256x128_0_7_0_0 : ∀ a, (![0, 7, 0, 0] : Fin 4 → Nat) a + S1x1x256x128.size a ≤ S1x8x256x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S2x3x1024.size a
  hwx0_0 : ∀ i : grid0.Coords, EltTy.bits .f32 = 32 ∨ (Rect.block (s := S2x3x1024) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x128.size a ≤ S2x3x1024.size a
  hwx0_1 : ∀ i : grid0.Coords, EltTy.bits .f32 = 32 ∨ (Rect.block (s := S2x3x1024) S1x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x256x128.size a ≤ S2x8x1024x1024.size a
  hwx0_6 : ∀ i : grid0.Coords, EltTy.bits .f32 = 32 ∨ (Rect.block (s := S2x8x1024x1024) S1x8x256x128.size (cc0_transform_6 i) (hinb0_6 i)).WholeWords (EltTy.packing .f32)

variable [Facts₀]

abbrev win0_0 : Pipeline.Window sig grid0 :=
  Pipeline.Window.ofSpec (Memref.whole main_arg0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x8x256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x3x1024 : Shape := ⟨3, ![2, 3, 1024]⟩
abbrev S3x64 : Shape := ⟨2, ![3, 64]⟩
abbrev S64 : Shape := ⟨1, ![64]⟩
abbrev S64x8 : Shape := ⟨2, ![64, 8]⟩
abbrev S8 : Shape := ⟨1, ![8]⟩
abbrev S2x1024x3 : Shape := ⟨3, ![2, 1024, 3]⟩
abbrev S2x1x1024x3 : Shape := ⟨4, ![2, 1, 1024, 3]⟩
abbrev S2x1024x1x3 : Shape := ⟨4, ![2, 1024, 1, 3]⟩
abbrev S2x1024x1024x3 : Shape := ⟨4, ![2, 1024, 1024, 3]⟩
abbrev S2x1024x1024x64 : Shape := ⟨4, ![2, 1024, 1024, 64]⟩
abbrev S1x1x1x64 : Shape := ⟨4, ![1, 1, 1, 64]⟩
abbrev S_ : Shape := ⟨0, ![]⟩
abbrev S2x1024x1024x8 : Shape := ⟨4, ![2, 1024, 1024, 8]⟩
abbrev S1x1x1x8 : Shape := ⟨4, ![1, 1, 1, 8]⟩
abbrev S2x8x1024x1024 : Shape := ⟨4, ![2, 8, 1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x3x1024, .f32⟩
  | .hbm, ⟨1, _⟩ => ⟨S3x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S2x1024x3, .f32⟩
  | .hbm, ⟨6, _⟩ => ⟨S2x1x1024x3, .f32⟩
  | .hbm, ⟨7, _⟩ => ⟨S2x1024x1x3, .f32⟩
  | .hbm, ⟨8, _⟩ => ⟨S2x1024x1024x3, .f32⟩
  | .hbm, ⟨9, _⟩ => ⟨S2x1024x1024x3, .f32⟩
  | .hbm, ⟨10, _⟩ => ⟨S2x1024x1024x3, .f32⟩
  | .hbm, ⟨11, _⟩ => ⟨S2x1024x1024x64, .f32⟩
  | .hbm, ⟨12, _⟩ => ⟨S1x1x1x64, .f32⟩
  | .hbm, ⟨13, _⟩ => ⟨S2x1024x1024x64, .f32⟩
  | .hbm, ⟨14, _⟩ => ⟨S2x1024x1024x64, .f32⟩
  | .hbm, ⟨15, _⟩ => ⟨S_, .f32⟩
  | .hbm, ⟨16, _⟩ => ⟨S2x1024x1024x64, .f32⟩
  | .hbm, ⟨17, _⟩ => ⟨S2x1024x1024x64, .f32⟩
  | .hbm, ⟨18, _⟩ => ⟨S2x1024x1024x8, .f32⟩
  | .hbm, ⟨19, _⟩ => ⟨S1x1x1x8, .f32⟩
  | .hbm, ⟨20, _⟩ => ⟨S2x1024x1024x8, .f32⟩
  | .hbm, ⟨21, _⟩ => ⟨S2x1024x1024x8, .f32⟩
  | .hbm, ⟨22, _⟩ => ⟨S2x8x1024x1024, .f32⟩
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S2x3x1024_S2x1024x3_0_2_1 : S2x3x1024.Transposes [0, 2, 1] S2x1024x3
  bcast_S2x1024x3_S2x1x1024x3_0_2_3 : S2x1024x3.BroadcastsInDim S2x1x1024x3 (![0, 2, 3] : Fin 3 → Fin S2x1x1024x3.rank)
  bcast_S2x1024x3_S2x1024x1x3_0_1_3 : S2x1024x3.BroadcastsInDim S2x1024x1x3 (![0, 1, 3] : Fin 3 → Fin S2x1024x1x3.rank)
  bcast_S2x1x1024x3_S2x1024x1024x3_0_1_2_3 : S2x1x1024x3.BroadcastsInDim S2x1024x1024x3 (![0, 1, 2, 3] : Fin 4 → Fin S2x1024x1024x3.rank)
  bcast_S2x1024x1x3_S2x1024x1024x3_0_1_2_3 : S2x1024x1x3.BroadcastsInDim S2x1024x1024x3 (![0, 1, 2, 3] : Fin 4 → Fin S2x1024x1024x3.rank)
  bcast_S64_S1x1x1x64_3 : S64.BroadcastsInDim S1x1x1x64 (![3] : Fin 1 → Fin S1x1x1x64.rank)
  bcast_S1x1x1x64_S2x1024x1024x64_0_1_2_3 : S1x1x1x64.BroadcastsInDim S2x1024x1024x64 (![0, 1, 2, 3] : Fin 4 → Fin S2x1024x1024x64.rank)
  bcast_S_S2x1024x1024x64 : S_.BroadcastsInDim S2x1024x1024x64 (![] : Fin 0 → Fin S2x1024x1024x64.rank)
  bcast_S8_S1x1x1x8_3 : S8.BroadcastsInDim S1x1x1x8 (![3] : Fin 1 → Fin S1x1x1x8.rank)
  bcast_S1x1x1x8_S2x1024x1024x8_0_1_2_3 : S1x1x1x8.BroadcastsInDim S2x1024x1024x8 (![0, 1, 2, 3] : Fin 4 → Fin S2x1024x1024x8.rank)
  transposes_S2x1024x1024x8_S2x8x1024x1024_0_3_1_2 : S2x1024x1024x8.Transposes [0, 3, 1, 2] S2x8x1024x1024
  dot_S2x1024x1024x3_S3x64_S2x1024x1024x64_3_0_012_1_n_n_wf : DotDims.WF S2x1024x1024x3 S3x64 S2x1024x1024x64 [3] [0] [0, 1, 2] [1] [] []
  dot_S2x1024x1024x64_S64x8_S2x1024x1024x8_3_0_012_1_n_n_wf : DotDims.WF S2x1024x1024x64 S64x8 S2x1024x1024x8 [3] [0] [0, 1, 2] [1] [] []

variable [Facts₀]

def dot_S2x1024x1024x3_S3x64_S2x1024x1024x64_3_0_012_1_n_n : DotDims S2x1024x1024x3 S3x64 S2x1024x1024x64 where
  lhsContracting := [3]
  rhsContracting := [0]
  lhsNonContracting := [0, 1, 2]
  rhsNonContracting := [1]
  lhsBatch := []
  rhsBatch := []
  wf := dot_S2x1024x1024x3_S3x64_S2x1024x1024x64_3_0_012_1_n_n_wf
def dot_S2x1024x1024x64_S64x8_S2x1024x1024x8_3_0_012_1_n_n : DotDims S2x1024x1024x64 S64x8 S2x1024x1024x8 where
  lhsContracting := [3]
  rhsContracting := [0]
  lhsNonContracting := [0, 1, 2]
  rhsNonContracting := [1]
  lhsBatch := []
  rhsBatch := []
  wf := dot_S2x1024x1024x64_S64x8_S2x1024x1024x8_3_0_012_1_n_n_wf

class Facts : Prop extends Facts₀ where

variable [Facts]
-- ==== Proof.KernelBody.lean ====
/-
  The kernel body as one pure step on its staging buffers.

  On whole staging memrefs — the six inputs at contents `x0 … x5`, the output at anything — the body runs to completion,
  leaves the inputs as they were, and leaves the output buffer at `outBlock x0 … x5`: its eight stores, one per head `k`,
  each the slab `[0, k, :, :]` of the buffer, read back as one function. The eight slabs tile the buffer, so nothing of
  what the buffer held before survives (the body's own loads of the output buffer are never used in a stored value).
  Stated at any float instance.
-/
import proofs.«168165_j79061757985077_1_alg».proof.Proof.Gen.Kernel.Launch
import proofs.«168165_j79061757985077_1_alg».proof.Proof.Gen.Kernel.Skeleton
import proofs.«168165_j79061757985077_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

abbrev rI0 : Rect S1x3x256 := Rect.unit (s := S1x3x256) ![0, 0, 0] S1x3x256.size inb_S1x3x256_S1x3x256_0_0_0
abbrev rI1 : Rect S1x3x128 := Rect.unit (s := S1x3x128) ![0, 0, 0] S1x3x128.size inb_S1x3x128_S1x3x128_0_0_0
abbrev rI2 : Rect S3x64 := Rect.unit (s := S3x64) ![0, 0] S3x64.size inb_S3x64_S3x64_0_0
abbrev rI3 : Rect S64 := Rect.unit (s := S64) ![0] S64.size inb_S64_S64_0
abbrev rI4 : Rect S64x8 := Rect.unit (s := S64x8) ![0, 0] S64x8.size inb_S64x8_S64x8_0_0
abbrev rI5 : Rect S8 := Rect.unit (s := S8) ![0] S8.size inb_S8_S8_0
abbrev rO0 : Rect S1x8x256x128 := Rect.unit (s := S1x8x256x128) ![0, 0, 0, 0] S1x1x256x128.size inb_S1x8x256x128_S1x1x256x128_0_0_0_0
abbrev rO1 : Rect S1x8x256x128 := Rect.unit (s := S1x8x256x128) ![0, 1, 0, 0] S1x1x256x128.size inb_S1x8x256x128_S1x1x256x128_0_1_0_0
abbrev rO2 : Rect S1x8x256x128 := Rect.unit (s := S1x8x256x128) ![0, 2, 0, 0] S1x1x256x128.size inb_S1x8x256x128_S1x1x256x128_0_2_0_0
abbrev rO3 : Rect S1x8x256x128 := Rect.unit (s := S1x8x256x128) ![0, 3, 0, 0] S1x1x256x128.size inb_S1x8x256x128_S1x1x256x128_0_3_0_0
abbrev rO4 : Rect S1x8x256x128 := Rect.unit (s := S1x8x256x128) ![0, 4, 0, 0] S1x1x256x128.size inb_S1x8x256x128_S1x1x256x128_0_4_0_0
abbrev rO5 : Rect S1x8x256x128 := Rect.unit (s := S1x8x256x128) ![0, 5, 0, 0] S1x1x256x128.size inb_S1x8x256x128_S1x1x256x128_0_5_0_0
abbrev rO6 : Rect S1x8x256x128 := Rect.unit (s := S1x8x256x128) ![0, 6, 0, 0] S1x1x256x128.size inb_S1x8x256x128_S1x1x256x128_0_6_0_0
abbrev rO7 : Rect S1x8x256x128 := Rect.unit (s := S1x8x256x128) ![0, 7, 0, 0] S1x1x256x128.size inb_S1x8x256x128_S1x1x256x128_0_7_0_0

/-! ## What the body stores -/

/-- The clamped hidden tensor `[64, 256, 128]` the eight stores share, from the loaded blocks. -/
def hid (v0 : Vec F S1x3x256 .f32) (v2 : Vec F S1x3x128 .f32) (v4 : Vec F S3x64 .f32) (v5 : Vec F S64 .f32) : FVec F S64x256x128 .f32 :=
  k0_pay8 (k0_pay1 v0) (k0_pay2 v2) v4 v5 (k0_pay4 v2 v4) (k0_pay6 v0 v4) (k0_pay7 v2 v4)

/-- The stored slab of head 0. -/
def slab0 (v0 : Vec F S1x3x256 .f32) (v2 : Vec F S1x3x128 .f32) (v4 : Vec F S3x64 .f32) (v5 : Vec F S64 .f32) (v6 : Vec F S64x8 .f32) (v7 : Vec F S8 .f32) : FVec F S1x1x256x128 .f32 :=
  k0_pay9 (k0_pay1 v0) (k0_pay2 v2) v4 v5 v6 v7 (k0_pay4 v2 v4) (k0_pay6 v0 v4) (k0_pay7 v2 v4)
/-- The stored slab of head 1. -/
def slab1 (v0 : Vec F S1x3x256 .f32) (v2 : Vec F S1x3x128 .f32) (v4 : Vec F S3x64 .f32) (v5 : Vec F S64 .f32) (v6 : Vec F S64x8 .f32) (v7 : Vec F S8 .f32) : FVec F S1x1x256x128 .f32 :=
  k0_pay11 (k0_pay10 (k0_pay1 v0) (k0_pay2 v2) v4 v5 v6 v7 (k0_pay4 v2 v4) (k0_pay6 v0 v4) (k0_pay7 v2 v4))

/-- The output staging buffer after the body, from the six input blocks: the eight stored slabs, LAST FIRST. -/
def outBlock (x0 : Vec F S1x3x256 .f32) (x1 : Vec F S1x3x128 .f32) (x2 : Vec F S3x64 .f32) (x3 : Vec F S64 .f32) (x4 : Vec F S64x8 .f32) (x5 : Vec F S8 .f32) : Vec F S1x8x256x128 .f32 :=
  View.canon
    [⟨rO7, k0_pay18 (View.ld x4 rI4) (View.ld x5 rI5) (hid (View.ld x0 rI0) (View.ld x1 rI1) (View.ld x2 rI2) (View.ld x3 rI3))⟩,
     ⟨rO6, k0_pay17 (View.ld x4 rI4) (View.ld x5 rI5) (hid (View.ld x0 rI0) (View.ld x1 rI1) (View.ld x2 rI2) (View.ld x3 rI3))⟩,
     ⟨rO5, k0_pay16 (View.ld x4 rI4) (View.ld x5 rI5) (hid (View.ld x0 rI0) (View.ld x1 rI1) (View.ld x2 rI2) (View.ld x3 rI3))⟩,
     ⟨rO4, k0_pay15 (k0_pay14 (View.ld x4 rI4) (View.ld x5 rI5) (hid (View.ld x0 rI0) (View.ld x1 rI1) (View.ld x2 rI2) (View.ld x3 rI3)))⟩,
     ⟨rO3, k0_pay13 (View.ld x4 rI4) (View.ld x5 rI5) (hid (View.ld x0 rI0) (View.ld x1 rI1) (View.ld x2 rI2) (View.ld x3 rI3))⟩,
     ⟨rO2, k0_pay12 (View.ld x4 rI4) (View.ld x5 rI5) (hid (View.ld x0 rI0) (View.ld x1 rI1) (View.ld x2 rI2) (View.ld x3 rI3))⟩,
     ⟨rO1, slab1 (View.ld x0 rI0) (View.ld x1 rI1) (View.ld x2 rI2) (View.ld x3 rI3) (View.ld x4 rI4) (View.ld x5 rI5)⟩,
     ⟨rO0, slab0 (View.ld x0 rI0) (View.ld x1 rI1) (View.ld x2 rI2) (View.ld x3 rI3) (View.ld x4 rI4) (View.ld x5 rI5)⟩]

/-- The eight slabs tile the buffer, so they cover it. -/
theorem outCover (p0 p1 p2 p3 p4 p5 p6 p7 : Vec F S1x1x256x128 .f32) (y : S1x8x256x128.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x8x256x128 .f32)), y ∈ pc.1.set :=
  View.cover_of_tiledL [⟨rO7, p7⟩, ⟨rO6, p6⟩, ⟨rO5, p5⟩, ⟨rO4, p4⟩, ⟨rO3, p3⟩, ⟨rO2, p2⟩, ⟨rO1, p1⟩, ⟨rO0, p0⟩] S1x1x256x128.size (by sl_kernel_rfl) y

end Cert.Kernel.Hand

end
-- ==== Proof.KernelData.lean ====
/-
  The proof data of the one pipeline: what every window's staging buffer holds after the body at each grid point.

  The arrays are the launch contents (the program is the region alone). An input window's buffer holds its block of its
  array; the output window's buffer holds `outBlock` of the six input blocks. The two windows on the coordinate array hold
  it at one half share each; every other input array is held whole. Nothing is owed and the invariant between points is
  the scoped buffers that are no staging buffer (there are none).
-/
import proofs.«168165_j79061757985077_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

end Cert.Kernel.Hand

end
-- ==== Proof.KernelRun.lean ====
/-
  The body's triple: on whole staging memrefs, the six inputs held at contents `x0 … x5` and the output at anything,
  the kernel function runs without fault to its end, the inputs unchanged and the output at `outBlock x0 … x5`.
-/
import proofs.«168165_j79061757985077_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem sound_kernel (c : Dev nD) (E : Set ℕ) (i : grid0.Coords)
    (arg3 : Memref sig .tc .vmem S1x3x256 .f32) (harg3 : arg3.IsWhole) (arg4 : Memref sig .tc .vmem S1x3x128 .f32) (harg4 : arg4.IsWhole)
    (arg5 : Memref sig .tc .vmem S3x64 .f32) (harg5 : arg5.IsWhole) (arg6 : Memref sig .tc .vmem S64 .f32) (harg6 : arg6.IsWhole)
    (arg7 : Memref sig .tc .vmem S64x8 .f32) (harg7 : arg7.IsWhole) (arg8 : Memref sig .tc .vmem S8 .f32) (harg8 : arg8.IsWhole)
    (arg9 : Memref sig .tc .vmem S1x8x256x128 .f32) (harg9 : arg9.IsWhole)
    (x0 : Vec F S1x3x256 .f32) (x1 : Vec F S1x3x128 .f32) (x2 : Vec F S3x64 .f32) (x3 : Vec F S64 .f32) (x4 : Vec F S64x8 .f32) (x5 : Vec F S8 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (outBlock x0 x1 x2 x3 x4 x5)) -∗ K ⟨⟩))
      ⊢ wp frame (wpE (defs₀ (F := F)) Variants.none c none) E
          (cc0__rel_pos_kernel i arg3 harg3 arg4 harg4 arg5 harg5 arg6 harg6 arg7 harg7 arg8 harg8 arg9 harg9) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _ _ _ _ _ _ _)

end Cert.Kernel.Hand

end
-- ==== Proof.KernelFrame.lean ====
/-
  The frame run: every weakly fair execution of the program terminates without fault, every array of the pipeline
  ends at what the proof data compute for it, and every other unscoped buffer ends as it was found.

  The coordinate array is handed to the kernel through two windows; the launch splits its full share into the two
  halves the proof data name, one per window (both windows only read it). Every input window's staging buffer holds
  its block of the array at every point, fetched there or not; the output window's buffer holds anything before the
  body and the eight stored slabs after it, and is written back at every point.
-/
import proofs.«168165_j79061757985077_1_alg».proof.Proof.KernelData
import proofs.«168165_j79061757985077_1_alg».proof.Proof.KernelRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## What each input window's buffer holds when the body runs -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The launch: the frame run of the program, and the frame claim read off it.

  The launch hands the pipeline each array behind its windows whole, once. The coordinate array stands behind two
  windows, so its full share is split into its two halves, one for each window (both only read it); every other array
  goes to its one window whole. After the run every window's array holds what the proof data compute, and an input
  window's array is never written, so each argument array ends at its launch contents.
-/
import proofs.«168165_j79061757985077_1_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and the shares -/

theorem Φ_eq (c : Dev nD) (t : Fin (cfg0.N + 1)) :
    (dats m 0 c).Φ t = Pipeline.scopedRest (Ix := Unit) (Name := ℕ) (U := UR sig nD τ) (Lvl := ℕ) (Val := Elt F) spec0 c := rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The six arrays behind the seven windows, each whole, make the windows' arrays at the proof data's shares: the
    coordinate array's full share is its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have hR : (dats m 0 c).arrays ((dats m 0 c).arrAt · 0)
      = bigSep Finset.univ fun w : Fin 7 =>
          ((((c.tc : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  have hL : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_arg3) ↦{fullShare} V m c main_arg3)
          ∗ (((c.tc : Thread nD τ).loc main_arg4) ↦{fullShare} V m c main_arg4) ∗ (((c.tc : Thread nD τ).loc main_v0) ↦{fullShare} V m c main_v0)) :=
    bigSep_eq_bigSepL_of_eq [main_arg0, main_arg1, main_arg2, main_arg3, main_arg4, main_v0] (by decide) (by decide) _
  rw [hR, bigSep_W0, share_0, share_1, share_2, share_3, share_4, share_5, share_6, hL]
  iintro ⟨H0, H1, H2, H3, H4, H5⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H4]; · iexact H4
  iexact H5

/-! ## The run -/

set_option backward.isDefEq.respectTransparency.types false in
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [Φ_eq]
      iintro ⟨-, H⟩
      iexact H)
    (hout := fun c => by
      rw [Φ_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3)),
     ((h c).1 4).trans (((dats m 0 c).arrAt_in 4 rfl _).trans (A_eq m c 4)),
     ((h c).1 5).trans (((dats m 0 c).arrAt_in 5 rfl _).trans (A_eq m c 5))⟩) (run_main m ρ)

end Cert.Kernel.Hand

end
-- ==== Proof.KernelIdealBody.lean ====
/-
  The kernel body as one pure step on its staging buffers.

  On whole staging memrefs — the six inputs at contents `x0 … x5`, the output at anything — the body runs to completion,
  leaves the inputs as they were, and leaves the output buffer at `outBlock x0 … x5`: its eight stores, one per head `k`,
  each the slab `[0, k, :, :]` of the buffer, read back as one function. The eight slabs tile the buffer, so nothing of
  what the buffer held before survives (the body's own loads of the output buffer are never used in a stored value).
  Stated at any float instance.
-/
import proofs.«168165_j79061757985077_1_alg».proof.Proof.Gen.KernelIdeal.Launch
import proofs.«168165_j79061757985077_1_alg».proof.Proof.Gen.KernelIdeal.Skeleton
import proofs.«168165_j79061757985077_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

abbrev rI0 : Rect S1x3x256 := Rect.unit (s := S1x3x256) ![0, 0, 0] S1x3x256.size inb_S1x3x256_S1x3x256_0_0_0
abbrev rI1 : Rect S1x3x128 := Rect.unit (s := S1x3x128) ![0, 0, 0] S1x3x128.size inb_S1x3x128_S1x3x128_0_0_0
abbrev rI2 : Rect S3x64 := Rect.unit (s := S3x64) ![0, 0] S3x64.size inb_S3x64_S3x64_0_0
abbrev rI3 : Rect S64 := Rect.unit (s := S64) ![0] S64.size inb_S64_S64_0
abbrev rI4 : Rect S64x8 := Rect.unit (s := S64x8) ![0, 0] S64x8.size inb_S64x8_S64x8_0_0
abbrev rI5 : Rect S8 := Rect.unit (s := S8) ![0] S8.size inb_S8_S8_0
abbrev rO0 : Rect S1x8x256x128 := Rect.unit (s := S1x8x256x128) ![0, 0, 0, 0] S1x1x256x128.size inb_S1x8x256x128_S1x1x256x128_0_0_0_0
abbrev rO1 : Rect S1x8x256x128 := Rect.unit (s := S1x8x256x128) ![0, 1, 0, 0] S1x1x256x128.size inb_S1x8x256x128_S1x1x256x128_0_1_0_0
abbrev rO2 : Rect S1x8x256x128 := Rect.unit (s := S1x8x256x128) ![0, 2, 0, 0] S1x1x256x128.size inb_S1x8x256x128_S1x1x256x128_0_2_0_0
abbrev rO3 : Rect S1x8x256x128 := Rect.unit (s := S1x8x256x128) ![0, 3, 0, 0] S1x1x256x128.size inb_S1x8x256x128_S1x1x256x128_0_3_0_0
abbrev rO4 : Rect S1x8x256x128 := Rect.unit (s := S1x8x256x128) ![0, 4, 0, 0] S1x1x256x128.size inb_S1x8x256x128_S1x1x256x128_0_4_0_0
abbrev rO5 : Rect S1x8x256x128 := Rect.unit (s := S1x8x256x128) ![0, 5, 0, 0] S1x1x256x128.size inb_S1x8x256x128_S1x1x256x128_0_5_0_0
abbrev rO6 : Rect S1x8x256x128 := Rect.unit (s := S1x8x256x128) ![0, 6, 0, 0] S1x1x256x128.size inb_S1x8x256x128_S1x1x256x128_0_6_0_0
abbrev rO7 : Rect S1x8x256x128 := Rect.unit (s := S1x8x256x128) ![0, 7, 0, 0] S1x1x256x128.size inb_S1x8x256x128_S1x1x256x128_0_7_0_0

/-! ## What the body stores -/

/-- The clamped hidden tensor `[64, 256, 128]` the eight stores share, from the loaded blocks. -/
def hid (v0 : Vec F S1x3x256 .f32) (v2 : Vec F S1x3x128 .f32) (v4 : Vec F S3x64 .f32) (v5 : Vec F S64 .f32) : FVec F S64x256x128 .f32 :=
  k0_pay8 (k0_pay1 v0) (k0_pay2 v2) v4 v5 (k0_pay4 v2 v4) (k0_pay6 v0 v4) (k0_pay7 v2 v4)

/-- The stored slab of head 0. -/
def slab0 (v0 : Vec F S1x3x256 .f32) (v2 : Vec F S1x3x128 .f32) (v4 : Vec F S3x64 .f32) (v5 : Vec F S64 .f32) (v6 : Vec F S64x8 .f32) (v7 : Vec F S8 .f32) : FVec F S1x1x256x128 .f32 :=
  k0_pay9 (k0_pay1 v0) (k0_pay2 v2) v4 v5 v6 v7 (k0_pay4 v2 v4) (k0_pay6 v0 v4) (k0_pay7 v2 v4)
/-- The stored slab of head 1. -/
def slab1 (v0 : Vec F S1x3x256 .f32) (v2 : Vec F S1x3x128 .f32) (v4 : Vec F S3x64 .f32) (v5 : Vec F S64 .f32) (v6 : Vec F S64x8 .f32) (v7 : Vec F S8 .f32) : FVec F S1x1x256x128 .f32 :=
  k0_pay11 (k0_pay10 (k0_pay1 v0) (k0_pay2 v2) v4 v5 v6 v7 (k0_pay4 v2 v4) (k0_pay6 v0 v4) (k0_pay7 v2 v4))

/-- The output staging buffer after the body, from the six input blocks: the eight stored slabs, LAST FIRST. -/
def outBlock (x0 : Vec F S1x3x256 .f32) (x1 : Vec F S1x3x128 .f32) (x2 : Vec F S3x64 .f32) (x3 : Vec F S64 .f32) (x4 : Vec F S64x8 .f32) (x5 : Vec F S8 .f32) : Vec F S1x8x256x128 .f32 :=
  View.canon
    [⟨rO7, k0_pay18 (View.ld x4 rI4) (View.ld x5 rI5) (hid (View.ld x0 rI0) (View.ld x1 rI1) (View.ld x2 rI2) (View.ld x3 rI3))⟩,
     ⟨rO6, k0_pay17 (View.ld x4 rI4) (View.ld x5 rI5) (hid (View.ld x0 rI0) (View.ld x1 rI1) (View.ld x2 rI2) (View.ld x3 rI3))⟩,
     ⟨rO5, k0_pay16 (View.ld x4 rI4) (View.ld x5 rI5) (hid (View.ld x0 rI0) (View.ld x1 rI1) (View.ld x2 rI2) (View.ld x3 rI3))⟩,
     ⟨rO4, k0_pay15 (k0_pay14 (View.ld x4 rI4) (View.ld x5 rI5) (hid (View.ld x0 rI0) (View.ld x1 rI1) (View.ld x2 rI2) (View.ld x3 rI3)))⟩,
     ⟨rO3, k0_pay13 (View.ld x4 rI4) (View.ld x5 rI5) (hid (View.ld x0 rI0) (View.ld x1 rI1) (View.ld x2 rI2) (View.ld x3 rI3))⟩,
     ⟨rO2, k0_pay12 (View.ld x4 rI4) (View.ld x5 rI5) (hid (View.ld x0 rI0) (View.ld x1 rI1) (View.ld x2 rI2) (View.ld x3 rI3))⟩,
     ⟨rO1, slab1 (View.ld x0 rI0) (View.ld x1 rI1) (View.ld x2 rI2) (View.ld x3 rI3) (View.ld x4 rI4) (View.ld x5 rI5)⟩,
     ⟨rO0, slab0 (View.ld x0 rI0) (View.ld x1 rI1) (View.ld x2 rI2) (View.ld x3 rI3) (View.ld x4 rI4) (View.ld x5 rI5)⟩]

/-- The eight slabs tile the buffer, so they cover it. -/
theorem outCover (p0 p1 p2 p3 p4 p5 p6 p7 : Vec F S1x1x256x128 .f32) (y : S1x8x256x128.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x8x256x128 .f32)), y ∈ pc.1.set :=
  View.cover_of_tiledL [⟨rO7, p7⟩, ⟨rO6, p6⟩, ⟨rO5, p5⟩, ⟨rO4, p4⟩, ⟨rO3, p3⟩, ⟨rO2, p2⟩, ⟨rO1, p1⟩, ⟨rO0, p0⟩] S1x1x256x128.size (by sl_kernel_rfl) y

end Cert.KernelIdeal.Hand

end
-- ==== Proof.KernelIdealData.lean ====
/-
  The proof data of the one pipeline: what every window's staging buffer holds after the body at each grid point.

  The arrays are the launch contents (the program is the region alone). An input window's buffer holds its block of its
  array; the output window's buffer holds `outBlock` of the six input blocks. The two windows on the coordinate array hold
  it at one half share each; every other input array is held whole. Nothing is owed and the invariant between points is
  the scoped buffers that are no staging buffer (there are none).
-/
import proofs.«168165_j79061757985077_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

end Cert.KernelIdeal.Hand

end
-- ==== Proof.KernelIdealRun.lean ====
/-
  The body's triple: on whole staging memrefs, the six inputs held at contents `x0 … x5` and the output at anything,
  the kernel function runs without fault to its end, the inputs unchanged and the output at `outBlock x0 … x5`.
-/
import proofs.«168165_j79061757985077_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem sound_kernel (c : Dev nD) (E : Set ℕ) (i : grid0.Coords)
    (arg3 : Memref sig .tc .vmem S1x3x256 .f32) (harg3 : arg3.IsWhole) (arg4 : Memref sig .tc .vmem S1x3x128 .f32) (harg4 : arg4.IsWhole)
    (arg5 : Memref sig .tc .vmem S3x64 .f32) (harg5 : arg5.IsWhole) (arg6 : Memref sig .tc .vmem S64 .f32) (harg6 : arg6.IsWhole)
    (arg7 : Memref sig .tc .vmem S64x8 .f32) (harg7 : arg7.IsWhole) (arg8 : Memref sig .tc .vmem S8 .f32) (harg8 : arg8.IsWhole)
    (arg9 : Memref sig .tc .vmem S1x8x256x128 .f32) (harg9 : arg9.IsWhole)
    (x0 : Vec F S1x3x256 .f32) (x1 : Vec F S1x3x128 .f32) (x2 : Vec F S3x64 .f32) (x3 : Vec F S64 .f32) (x4 : Vec F S64x8 .f32) (x5 : Vec F S8 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (outBlock x0 x1 x2 x3 x4 x5)) -∗ K ⟨⟩))
      ⊢ wp frame (wpE (defs₀ (F := F)) Variants.none c none) E
          (cc0__rel_pos_kernel i arg3 harg3 arg4 harg4 arg5 harg5 arg6 harg6 arg7 harg7 arg8 harg8 arg9 harg9) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _ _ _ _ _ _ _)

end Cert.KernelIdeal.Hand

end
-- ==== Proof.KernelIdealFrame.lean ====
/-
  The frame run: every weakly fair execution of the program terminates without fault, every array of the pipeline
  ends at what the proof data compute for it, and every other unscoped buffer ends as it was found.

  The coordinate array is handed to the kernel through two windows; the launch splits its full share into the two
  halves the proof data name, one per window (both windows only read it). Every input window's staging buffer holds
  its block of the array at every point, fetched there or not; the output window's buffer holds anything before the
  body and the eight stored slabs after it, and is written back at every point.
-/
import proofs.«168165_j79061757985077_1_alg».proof.Proof.KernelIdealData
import proofs.«168165_j79061757985077_1_alg».proof.Proof.KernelIdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## What each input window's buffer holds when the body runs -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
/-
  The launch: the frame run of the program, and the frame claim read off it.

  The launch hands the pipeline each array behind its windows whole, once. The coordinate array stands behind two
  windows, so its full share is split into its two halves, one for each window (both only read it); every other array
  goes to its one window whole. After the run every window's array holds what the proof data compute, and an input
  window's array is never written, so each argument array ends at its launch contents.
-/
import proofs.«168165_j79061757985077_1_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and the shares -/

theorem Φ_eq (c : Dev nD) (t : Fin (cfg0.N + 1)) :
    (dats m 0 c).Φ t = Pipeline.scopedRest (Ix := Unit) (Name := ℕ) (U := UR sig nD τ) (Lvl := ℕ) (Val := Elt F) spec0 c := rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The six arrays behind the seven windows, each whole, make the windows' arrays at the proof data's shares: the
    coordinate array's full share is its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have hR : (dats m 0 c).arrays ((dats m 0 c).arrAt · 0)
      = bigSep Finset.univ fun w : Fin 7 =>
          ((((c.tc : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  have hL : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_arg3) ↦{fullShare} V m c main_arg3)
          ∗ (((c.tc : Thread nD τ).loc main_arg4) ↦{fullShare} V m c main_arg4) ∗ (((c.tc : Thread nD τ).loc main_v0) ↦{fullShare} V m c main_v0)) :=
    bigSep_eq_bigSepL_of_eq [main_arg0, main_arg1, main_arg2, main_arg3, main_arg4, main_v0] (by decide) (by decide) _
  rw [hR, bigSep_W0, share_0, share_1, share_2, share_3, share_4, share_5, share_6, hL]
  iintro ⟨H0, H1, H2, H3, H4, H5⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H4]; · iexact H4
  iexact H5

/-! ## The run -/

set_option backward.isDefEq.respectTransparency.types false in
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [Φ_eq]
      iintro ⟨-, H⟩
      iexact H)
    (hout := fun c => by
      rw [Φ_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3)),
     ((h c).1 4).trans (((dats m 0 c).arrAt_in 4 rfl _).trans (A_eq m c 4)),
     ((h c).1 5).trans (((dats m 0 c).arrAt_in 5 rfl _).trans (A_eq m c 5))⟩) (run_main m ρ)

end Cert.KernelIdeal.Hand

end
-- ==== Proof.Spec.lean ====
/-
  The function both programs compute, index by index, on the extended reals.

  For a batch `b`, a head `k` and a pair of points `i`, `j`: project each point's three coordinates onto the 64 hidden
  units (`proj`: a sum over the three coordinates, taken in order from zero), form for each hidden unit the difference of
  the two projections plus the first bias, clamp it at zero from below (`hidden`), and contract the 64 hidden values
  against column `k` of the second weight matrix, plus the second bias (`outAt`).
-/
import Idealize.ShloMosaic.PureOps.Ideal
import Idealize.ShloMosaic.Lib.ValueIdx

noncomputable section

namespace Cert.Spec

open Idealize.ShloMosaic Idealize.ShloMosaic.ValueIdx

/-- The projection of point `n` of batch `b` onto hidden unit `h`: the sum over the three coordinates `c` of
    `W1[c, h] · xyz[b, c, n]`, accumulated in coordinate order starting from zero. -/
def proj (xyz : (⟨3, ![2, 3, 1024]⟩ : Shape).Idx → EReal) (W1 : (⟨2, ![3, 64]⟩ : Shape).Idx → EReal)
    (b : Fin 2) (h : Fin 64) (n : Fin 1024) : EReal :=
  0 + W1 (ix2 (0 : Fin 3) h) * xyz (ix3 b (0 : Fin 3) n) + W1 (ix2 (1 : Fin 3) h) * xyz (ix3 b (1 : Fin 3) n)
    + W1 (ix2 (2 : Fin 3) h) * xyz (ix3 b (2 : Fin 3) n)

/-- Hidden unit `h` of the pair `(i, j)`: `max (proj j − proj i + b1[h]) 0`. -/
def hidden (xyz : (⟨3, ![2, 3, 1024]⟩ : Shape).Idx → EReal) (W1 : (⟨2, ![3, 64]⟩ : Shape).Idx → EReal)
    (b1 : (⟨1, ![64]⟩ : Shape).Idx → EReal) (b : Fin 2) (h : Fin 64) (i j : Fin 1024) : EReal :=
  max (proj xyz W1 b h j - proj xyz W1 b h i + b1 (ix1 h)) 0

/-- The result at batch `b`, head `k`, points `i`, `j`: `Σ_h hidden[h] · W2[h, k] + b2[k]`. -/
def outAt (xyz : (⟨3, ![2, 3, 1024]⟩ : Shape).Idx → EReal) (W1 : (⟨2, ![3, 64]⟩ : Shape).Idx → EReal)
    (b1 : (⟨1, ![64]⟩ : Shape).Idx → EReal) (W2 : (⟨2, ![64, 8]⟩ : Shape).Idx → EReal)
    (b2 : (⟨1, ![8]⟩ : Shape).Idx → EReal) (b : Fin 2) (k : Fin 8) (i j : Fin 1024) : EReal :=
  (∑ h : Fin 64, hidden xyz W1 b1 b h i j * W2 (ix2 h k)) + b2 (ix1 k)

/-- The whole result array as one function of the five argument arrays. -/
def G (xyz : (⟨3, ![2, 3, 1024]⟩ : Shape).Idx → EReal) (W1 : (⟨2, ![3, 64]⟩ : Shape).Idx → EReal)
    (b1 : (⟨1, ![64]⟩ : Shape).Idx → EReal) (W2 : (⟨2, ![64, 8]⟩ : Shape).Idx → EReal)
    (b2 : (⟨1, ![8]⟩ : Shape).Idx → EReal) : (⟨4, ![2, 8, 1024, 1024]⟩ : Shape).Idx → EReal :=
  fun y => outAt xyz W1 b1 W2 b2 (y 0) (y 1) (y 2) (y 3)

theorem G_ix4 (xyz : (⟨3, ![2, 3, 1024]⟩ : Shape).Idx → EReal) (W1 : (⟨2, ![3, 64]⟩ : Shape).Idx → EReal)
    (b1 : (⟨1, ![64]⟩ : Shape).Idx → EReal) (W2 : (⟨2, ![64, 8]⟩ : Shape).Idx → EReal)
    (b2 : (⟨1, ![8]⟩ : Shape).Idx → EReal) (b : Fin 2) (k : Fin 8) (i j : Fin 1024) :
    G xyz W1 b1 W2 b2 (ix4 b k i j) = outAt xyz W1 b1 W2 b2 b k i j := rfl

end Cert.Spec

end
-- ==== Proof.KernelIdealValueLayout.lean ====
/-
  Layout operations read at an index given by coordinates: the keep-dimension forms this kernel's body uses.

  A vector `[a]` viewed as a column `[a, 1]` or as `[a, 1, 1]`, a matrix `[a, b]` viewed as `[a, 1, b]`, `[a, b, 1]` or
  `[1, 1, a, b]`, and the broadcasts of such views along their unit axes, each read at an index written by its
  coordinates: a shape cast keeps the row-major position, a broadcast reads coordinate `0` on a unit axis. Also a slice of
  a vector, and a sum over the leading axis of a rank-3 array as a sum over that axis's coordinate.
-/
import Idealize.ShloMosaic.Lib.ValueLayout
import Idealize.ShloMosaic.PureOps.Ideal.Laws

noncomputable section

namespace Cert.KernelIdeal.HandValue

open Idealize.ShloMosaic Idealize.ShloMosaic.ValueIdx

variable {α : Type}

/-! ## Shape casts that add or drop unit axes -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1, 1]` reads, at `(i, u, v)`, the operand at `i`. -/
theorem shapeCast_a_a11_apply {a : ℕ} (x : (⟨1, ![a]⟩ : Shape).Idx → α) (h : (⟨1, ![a]⟩ : Shape).ShapeCasts ⟨3, ![a, 1, 1]⟩)
    (i : Fin a) (u v : Fin 1) : shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    simp only [hu, hv, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[1, 1, a, b]` reads, at `(u, v, i, j)`, the operand at `(i, j)`. -/
theorem shapeCast_ab_11ab_apply {a b : ℕ} (x : (⟨2, ![a, b]⟩ : Shape).Idx → α) (h : (⟨2, ![a, b]⟩ : Shape).ShapeCasts ⟨4, ![1, 1, a, b]⟩)
    (u v : Fin 1) (i : Fin a) (j : Fin b) : shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

/-! ## Broadcasts along unit axes -/

/-- An `[a, 1]` column broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, 1, b]` array broadcast to `[a, c, b]` reads, at `(h, i, j)`, the operand at `(h, 0, j)`. -/
theorem broadcastTo_a1b_acb_apply {a c b : ℕ} (v : (⟨3, ![a, 1, b]⟩ : Shape).Idx → α)
    (hb : (⟨3, ![a, 1, b]⟩ : Shape).Broadcasts ⟨3, ![a, c, b]⟩) (h : Fin a) (i : Fin c) (j : Fin b) :
    broadcastTo ⟨3, ![a, c, b]⟩ v hb (ix3 h i j) = v (ix3 h (0 : Fin 1) j) := by
  refine broadcastTo_apply v hb (ix3 h i j) (ix3 h (0 : Fin 1) j) fun ax => ?_
  match ax with
  | ⟨0, _⟩ =>
    show h.val = if a = 1 then 0 else h.val
    split
    · have := h.isLt; omega
    · rfl
  | ⟨1, _⟩ => rfl
  | ⟨2, _⟩ =>
    show j.val = if b = 1 then 0 else j.val
    split
    · have := j.isLt; omega
    · rfl

/-- An `[a, c, 1]` array broadcast to `[a, c, b]` reads, at `(h, i, j)`, the operand at `(h, i, 0)`. -/
theorem broadcastTo_ac1_acb_apply {a c b : ℕ} (v : (⟨3, ![a, c, 1]⟩ : Shape).Idx → α)
    (hb : (⟨3, ![a, c, 1]⟩ : Shape).Broadcasts ⟨3, ![a, c, b]⟩) (h : Fin a) (i : Fin c) (j : Fin b) :
    broadcastTo ⟨3, ![a, c, b]⟩ v hb (ix3 h i j) = v (ix3 h i (0 : Fin 1)) := by
  refine broadcastTo_apply v hb (ix3 h i j) (ix3 h i (0 : Fin 1)) fun ax => ?_
  match ax with
  | ⟨0, _⟩ =>
    show h.val = if a = 1 then 0 else h.val
    split
    · have := h.isLt; omega
    · rfl
  | ⟨1, _⟩ =>
    show i.val = if c = 1 then 0 else i.val
    split
    · have := i.isLt; omega
    · rfl
  | ⟨2, _⟩ => rfl

/-- An `[a, 1, 1]` array broadcast to `[a, c, b]` reads, at `(h, i, j)`, the operand at `(h, 0, 0)`. -/
theorem broadcastTo_a11_acb_apply {a c b : ℕ} (v : (⟨3, ![a, 1, 1]⟩ : Shape).Idx → α)
    (hb : (⟨3, ![a, 1, 1]⟩ : Shape).Broadcasts ⟨3, ![a, c, b]⟩) (h : Fin a) (i : Fin c) (j : Fin b) :
    broadcastTo ⟨3, ![a, c, b]⟩ v hb (ix3 h i j) = v (ix3 h (0 : Fin 1) (0 : Fin 1)) := by
  refine broadcastTo_apply v hb (ix3 h i j) (ix3 h (0 : Fin 1) (0 : Fin 1)) fun ax => ?_
  match ax with
  | ⟨0, _⟩ =>
    show h.val = if a = 1 then 0 else h.val
    split
    · have := h.isLt; omega
    · rfl
  | ⟨1, _⟩ => rfl
  | ⟨2, _⟩ => rfl

/-! ## A slice of a vector, and one element of a one-element vector -/

/-- A vector cut from `o` reads, at `j`, the source at `k` with `k = o + j`. -/
theorem slice1_apply {n m : ℕ} (o : ℕ) (X : (⟨1, ![n]⟩ : Shape).Idx → α) (h : (⟨1, ![n]⟩ : Shape).Slices ![o] ⟨1, ![m]⟩)
    (j : Fin m) (k : Fin n) (hk : k.val = o + j.val) : extractStridedSlice ⟨1, ![m]⟩ ![o] X h (ix1 j) = X (ix1 k) :=
  extractStridedSlice_apply _ _ _ _ _ (fun ax => by
    match ax with
    | ⟨0, _⟩ => exact hk)

/-- The one element of a one-element vector. -/
theorem extractAt_one (X : (⟨1, ![1]⟩ : Shape).Idx → α) (h : ∀ a, (![0] : Fin 1 → ℕ) a < (⟨1, ![1]⟩ : Shape).size a) :
    extractAt ![0] X h = X (ix1 (0 : Fin 1)) := by
  unfold extractAt
  congr 1
  funext ax
  match ax with
  | ⟨0, _⟩ => rfl

/-! ## A sum over the leading axis of a rank-3 array -/

/-- The sum over the leading axis of an `[a, c, b]` array of extended reals, from a zero accumulator, read at `(i, j)`: the sum over
    `h` of the array at `(h, i, j)`. -/
theorem sum_axis0_apply {a c b : ℕ} (src : FVec Ideal ⟨3, ![a, c, b]⟩ .f32)
    (h : (⟨3, ![a, c, b]⟩ : Shape).Reduces [0] ⟨2, ![c, b]⟩) (hφ : FKind.Formats .f32)
    (hacc : (0x00000000#32 : BitVec 32) = 0x00000000#32) (i : Fin c) (j : Fin b) :
    multiReduction .add [0] ⟨2, ![c, b]⟩ src 0x00000000#32 h hφ hacc (ix2 i j) = ∑ k : Fin a, src (ix3 k i j) := by
  refine (Ideal.multiReduction_add_single src 0x00000000#32 h hφ hacc (ix2 i j)).trans ?_
  show ∑ k : Fin a, src (h.lift (ix2 i j) k) = ∑ k : Fin a, src (ix3 k i j)
  refine Finset.sum_congr rfl fun k _ => congrArg src (funext fun ax => Fin.ext ?_)
  match ax with
  | ⟨0, _⟩ => rfl
  | ⟨1, _⟩ => rfl
  | ⟨2, _⟩ => rfl

end Cert.KernelIdeal.HandValue

end
-- ==== Proof.KernelIdealValueHidden.lean ====
/-
  The clamped hidden tensor of the kernel body, read at an index, on the extended reals.

  For the loaded blocks — `x0` the `i`-tile of the coordinates, `x1` the `j`-tile, `x2` the first weight matrix, `x3` the
  first bias — the body forms, for hidden unit `h`, the projection of each tile's points onto `h` (the sum over the three
  coordinates, accumulated in coordinate order from zero), and the hidden value of the pair `(i, j)` is the difference of
  the two projections plus the bias, clamped at zero from below.
-/
import proofs.«168165_j79061757985077_1_alg».proof.Proof.KernelIdealBody
import proofs.«168165_j79061757985077_1_alg».proof.Proof.KernelIdealValueLayout

set_option maxRecDepth 16384

noncomputable section

namespace Cert.KernelIdeal.HandValue

open Cert.KernelIdeal Cert.KernelIdeal.Gen Cert.KernelIdeal.Hand
open Idealize.ShloMosaic Idealize.ShloMosaic.ValueIdx

/-- The projection of point `p` of a tile of `n` points onto hidden unit `h`: the sum over the three coordinates `c` of
    `W[c, h] · X[0, c, p]`, accumulated in coordinate order starting from zero. -/
def projTile {n : ℕ} (W : (⟨2, ![3, 64]⟩ : Shape).Idx → EReal) (X : (⟨3, ![1, 3, n]⟩ : Shape).Idx → EReal) (h : Fin 64) (p : Fin n) : EReal :=
  0 + W (ix2 (0 : Fin 3) h) * X (ix3 (0 : Fin 1) (0 : Fin 3) p) + W (ix2 (1 : Fin 3) h) * X (ix3 (0 : Fin 1) (1 : Fin 3) p)
    + W (ix2 (2 : Fin 3) h) * X (ix3 (0 : Fin 1) (2 : Fin 3) p)

/-- The zero word is the extended real zero. -/
theorem zero_word : (Scalar.ofBits (F := Ideal) .f32 0x00000000#32 : EReal) = 0 := Ideal.ofBits_zero_f32

/-- A tile with its leading unit axis dropped reads the tile at batch coordinate `0`. -/
theorem pay1_apply (v0 : Vec Ideal S1x3x256 .f32) (c : Fin 3) (i : Fin 256) :
    k0_pay1 v0 (ix2 c i) = v0 (ix3 (0 : Fin 1) c i) := by
  unfold k0_pay1
  exact shapeCast_1ab_ab_apply v0 _ c i

theorem pay2_apply (v2 : Vec Ideal S1x3x128 .f32) (c : Fin 3) (j : Fin 128) :
    k0_pay2 v2 (ix2 c j) = v2 (ix3 (0 : Fin 1) c j) := by
  unfold k0_pay2
  exact shapeCast_1ab_ab_apply v2 _ c j

/-- Row `c` of the weight matrix as a column `[64, 1]`, read at `(h, u)`. -/
theorem wcol_apply (o : ℕ) (v4 : Vec Ideal S3x64 .f32) (hs : S3x64.Slices ![o, 0] S1x64) (hc1 : S1x64.ShapeCasts S64)
    (hc2 : S64.ShapeCasts S64x1) (c : Fin 3) (hc : c.val = o) (h : Fin 64) (u : Fin 1) :
    shapeCast S64x1 (shapeCast S64 (extractStridedSlice S1x64 ![o, 0] v4 hs) hc1) hc2 (ix2 h u) = v4 (ix2 c h) := by
  refine (shapeCast_a_a1_apply _ hc2 h u).trans ?_
  refine (shapeCast_1a_a_apply _ hc1 h).trans ?_
  exact slice2_axis0_apply o v4 hs (0 : Fin 1) h c (by rw [hc]; rfl)

/-- Row `c` of a `[3, n]` tile as a row `[1, n]`, read at `(u, p)`. -/
theorem prow_apply {n : ℕ} (o : ℕ) (v1 : FVec Ideal ⟨2, ![3, n]⟩ .f32) (hs : (⟨2, ![3, n]⟩ : Shape).Slices ![o, 0] ⟨2, ![1, n]⟩)
    (hc1 : (⟨2, ![1, n]⟩ : Shape).ShapeCasts ⟨1, ![n]⟩) (hc2 : (⟨1, ![n]⟩ : Shape).ShapeCasts ⟨2, ![1, n]⟩)
    (c : Fin 3) (hc : c.val = o) (u : Fin 1) (p : Fin n) :
    shapeCast ⟨2, ![1, n]⟩ (shapeCast ⟨1, ![n]⟩ (extractStridedSlice ⟨2, ![1, n]⟩ ![o, 0] v1 hs) hc1) hc2 (ix2 u p) = v1 (ix2 c p) := by
  refine (shapeCast_a_1a_apply _ hc2 u p).trans ?_
  refine (shapeCast_1a_a_apply _ hc1 p).trans ?_
  exact slice2_axis0_apply o v1 hs (0 : Fin 1) p c (by rw [hc]; rfl)

/-- One coordinate's term of a projection: the weight column times the tile row, both broadcast to `[64, n]`. -/
theorem term_apply {n : ℕ} (o : ℕ) (v4 : Vec Ideal S3x64 .f32) (v1 : FVec Ideal ⟨2, ![3, n]⟩ .f32)
    (hs4 : S3x64.Slices ![o, 0] S1x64) (hc1 : S1x64.ShapeCasts S64) (hc2 : S64.ShapeCasts S64x1)
    (hs1 : (⟨2, ![3, n]⟩ : Shape).Slices ![o, 0] ⟨2, ![1, n]⟩)
    (hc3 : (⟨2, ![1, n]⟩ : Shape).ShapeCasts ⟨1, ![n]⟩) (hc4 : (⟨1, ![n]⟩ : Shape).ShapeCasts ⟨2, ![1, n]⟩)
    (hb1 : S64x1.Broadcasts ⟨2, ![64, n]⟩) (hb2 : (⟨2, ![1, n]⟩ : Shape).Broadcasts ⟨2, ![64, n]⟩)
    (c : Fin 3) (hc : c.val = o) (h : Fin 64) (p : Fin n) :
    mulf (broadcastTo ⟨2, ![64, n]⟩ (shapeCast S64x1 (shapeCast S64 (extractStridedSlice S1x64 ![o, 0] v4 hs4) hc1) hc2) hb1)
        (broadcastTo ⟨2, ![64, n]⟩ (shapeCast ⟨2, ![1, n]⟩ (shapeCast ⟨1, ![n]⟩ (extractStridedSlice ⟨2, ![1, n]⟩ ![o, 0] v1 hs1) hc3) hc4) hb2)
        (ix2 h p)
      = v4 (ix2 c h) * v1 (ix2 c p) := by
  rw [mulf_apply]
  refine congrArg₂ (· * ·) ?_ ?_
  · exact (broadcastTo_a1_ab_apply _ hb1 h p).trans (wcol_apply o v4 hs4 hc1 hc2 c hc h 0)
  · exact (broadcastTo_1b_ab_apply _ hb2 h p).trans (prow_apply o v1 hs1 hc3 hc4 c hc 0 p)

/-- The `j`-tile's partial projection after coordinate 0: `0 + W[0, h] · x[0, 0, j]`. -/
theorem pay4_apply (v2 : Vec Ideal S1x3x128 .f32) (v4 : Vec Ideal S3x64 .f32) (h : Fin 64) (j : Fin 128) :
    k0_pay4 v2 v4 (ix2 h j) = 0 + v4 (ix2 (0 : Fin 3) h) * v2 (ix3 (0 : Fin 1) (0 : Fin 3) j) := by
  unfold k0_pay4 k0_pay3
  rw [addf_apply, broadcast_apply, zero_word]
  refine congrArg (0 + ·) ?_
  refine (term_apply 0 v4 (k0_pay2 v2) _ _ _ _ _ _ _ _ (0 : Fin 3) rfl h j).trans ?_
  rw [pay2_apply]

/-- The `j`-tile's coordinate-1 term. -/
theorem pay7_apply (v2 : Vec Ideal S1x3x128 .f32) (v4 : Vec Ideal S3x64 .f32) (h : Fin 64) (j : Fin 128) :
    k0_pay7 v2 v4 (ix2 h j) = v4 (ix2 (1 : Fin 3) h) * v2 (ix3 (0 : Fin 1) (1 : Fin 3) j) := by
  unfold k0_pay7 k0_pay5
  refine (term_apply 1 v4 (k0_pay2 v2) _ _ _ _ _ _ _ _ (1 : Fin 3) rfl h j).trans ?_
  rw [pay2_apply]

/-- The `i`-tile's partial projection after coordinates 0 and 1. -/
theorem pay6_apply (v0 : Vec Ideal S1x3x256 .f32) (v4 : Vec Ideal S3x64 .f32) (h : Fin 64) (i : Fin 256) :
    k0_pay6 v0 v4 (ix2 h i)
      = 0 + v4 (ix2 (0 : Fin 3) h) * v0 (ix3 (0 : Fin 1) (0 : Fin 3) i) + v4 (ix2 (1 : Fin 3) h) * v0 (ix3 (0 : Fin 1) (1 : Fin 3) i) := by
  unfold k0_pay6 k0_pay3 k0_pay5
  rw [addf_apply, addf_apply, broadcast_apply, zero_word]
  refine congrArg₂ (· + ·) (congrArg (0 + ·) ?_) ?_
  · refine (term_apply 0 v4 (k0_pay1 v0) _ _ _ _ _ _ _ _ (0 : Fin 3) rfl h i).trans ?_
    rw [pay1_apply]
  · refine (term_apply 1 v4 (k0_pay1 v0) _ _ _ _ _ _ _ _ (1 : Fin 3) rfl h i).trans ?_
    rw [pay1_apply]

/-- The clamped hidden tensor over its operands as variables. -/
theorem pay8_apply (v1 : FVec Ideal S3x256 .f32) (v3 : FVec Ideal S3x128 .f32) (v4 : Vec Ideal S3x64 .f32) (v5 : Vec Ideal S64 .f32)
    (v26 : FVec Ideal S64x128 .f32) (v36 : FVec Ideal S64x256 .f32) (v42 : FVec Ideal S64x128 .f32)
    (h : Fin 64) (i : Fin 256) (j : Fin 128) :
    k0_pay8 v1 v3 v4 v5 v26 v36 v42 (ix3 h i j)
      = max (((v26 (ix2 h j) + v42 (ix2 h j)) + v4 (ix2 (2 : Fin 3) h) * v3 (ix2 (2 : Fin 3) j))
              - (v36 (ix2 h i) + v4 (ix2 (2 : Fin 3) h) * v1 (ix2 (2 : Fin 3) i)) + v5 (ix1 h)) 0 := by
  unfold k0_pay8
  rw [maximumf_apply, broadcast_apply, zero_word, addf_apply, subf_apply]
  refine congrArg (max · 0) (congrArg₂ (· + ·) (congrArg₂ (· - ·) ?_ ?_) ?_)
  · refine (broadcastTo_a1b_acb_apply _ _ h i j).trans ?_
    refine (shapeCast_ab_a1b_apply _ _ h 0 j).trans ?_
    rw [addf_apply, addf_apply]
    refine congrArg ((v26 (ix2 h j) + v42 (ix2 h j)) + ·) ?_
    exact term_apply 2 v4 v3 _ _ _ _ _ _ _ _ (2 : Fin 3) rfl h j
  · refine (broadcastTo_ac1_acb_apply _ _ h i j).trans ?_
    refine (shapeCast_ab_ab1_apply _ _ h i 0).trans ?_
    rw [addf_apply]
    refine congrArg (v36 (ix2 h i) + ·) ?_
    exact term_apply 2 v4 v1 _ _ _ _ _ _ _ _ (2 : Fin 3) rfl h i
  · refine (broadcastTo_a11_acb_apply _ _ h i j).trans ?_
    exact shapeCast_a_a11_apply _ _ h 0 0

/-- THE HIDDEN TENSOR AT `(h, i, j)`: the clamped difference of the two tiles' projections plus the bias. -/
theorem hid_apply (v0 : Vec Ideal S1x3x256 .f32) (v2 : Vec Ideal S1x3x128 .f32) (v4 : Vec Ideal S3x64 .f32) (v5 : Vec Ideal S64 .f32)
    (h : Fin 64) (i : Fin 256) (j : Fin 128) :
    hid (F := Ideal) v0 v2 v4 v5 (ix3 h i j) = max (projTile v4 v2 h j - projTile v4 v0 h i + v5 (ix1 h)) 0 := by
  unfold hid
  rw [pay8_apply, pay4_apply, pay7_apply, pay6_apply, pay1_apply, pay2_apply]
  rfl

end Cert.KernelIdeal.HandValue

end
-- ==== Proof.KernelIdealValueBlock.lean ====
/-
  The output staging buffer after the body, read at an index, on the extended reals.

  The body stores eight slabs, one per head `k`, each onto `[0, k, :, :]` of the buffer. Slab `k` at `(i, j)` is the sum over the
  64 hidden units `h` of the clamped hidden value of the pair `(i, j)` times `W2[h, k]`, plus `b2[k]`. The slabs are disjoint and tile
  the buffer, so the buffer at `(0, k, i, j)` is slab `k` at `(0, 0, i, j)`.
-/
import proofs.«168165_j79061757985077_1_alg».proof.Proof.KernelIdealValueHidden

set_option maxRecDepth 16384

noncomputable section

namespace Cert.KernelIdeal.HandValue

open Cert.KernelIdeal Cert.KernelIdeal.Gen Cert.KernelIdeal.Hand
open Idealize.ShloMosaic Idealize.ShloMosaic.ValueIdx

/-! ## One head's slab: the contraction over the hidden units, plus the bias -/

/-- Column `o` of the second weight matrix broadcast against the hidden tensor, multiplied, summed over the hidden units, plus entry
    `o` of the second bias, as a `[1, 1, 256, 128]` slab read at `(0, 0, i, j)`. -/
theorem head_apply (o : ℕ) (v6 : Vec Ideal S64x8 .f32) (v7 : Vec Ideal S8 .f32) (v70 : FVec Ideal S64x256x128 .f32)
    (hs6 : S64x8.Slices ![0, o] S64x1) (hc1 : S64x1.ShapeCasts S64) (hc2 : S64.ShapeCasts S64x1x1)
    (hb : S64x1x1.Broadcasts S64x256x128) (hr : S64x256x128.Reduces [0] S256x128) (hφ : FKind.Formats .f32)
    (hacc : (0x00000000#32 : BitVec 32) = 0x00000000#32)
    (hs7 : S8.Slices ![o] S1) (hp : ∀ a, (![0] : Fin 1 → ℕ) a < S1.size a) (hc3 : S256x128.ShapeCasts S1x1x256x128)
    (k : Fin 8) (hk : k.val = o) (i : Fin 256) (j : Fin 128) :
    shapeCast S1x1x256x128
      (addf (multiReduction .add [0] S256x128
              (mulf v70 (broadcastTo S64x256x128 (shapeCast S64x1x1 (shapeCast S64 (extractStridedSlice S64x1 ![0, o] v6 hs6) hc1) hc2) hb))
              0x00000000#32 hr hφ hacc)
            (broadcast S256x128 (extractAt ![0] (extractStridedSlice S1 ![o] v7 hs7) hp))) hc3 (ix4 (0 : Fin 1) (0 : Fin 1) i j)
      = (∑ h : Fin 64, v70 (ix3 h i j) * v6 (ix2 h k)) + v7 (ix1 k) := by
  refine (shapeCast_ab_11ab_apply _ hc3 0 0 i j).trans ?_
  rw [addf_apply, broadcast_apply]
  refine congrArg₂ (· + ·) ?_ ?_
  · refine (sum_axis0_apply _ hr hφ hacc i j).trans ?_
    refine Finset.sum_congr rfl fun h _ => ?_
    rw [mulf_apply]
    refine congrArg (v70 (ix3 h i j) * ·) ?_
    refine (broadcastTo_a11_acb_apply _ hb h i j).trans ?_
    refine (shapeCast_a_a11_apply _ hc2 h 0 0).trans ?_
    refine (shapeCast_a1_a_apply _ hc1 h).trans ?_
    exact slice2_axis1_apply o v6 hs6 h (0 : Fin 1) k (by rw [hk]; rfl)
  · refine (extractAt_one _ hp).trans ?_
    exact slice1_apply o v7 hs7 (0 : Fin 1) k (by rw [hk]; rfl)

/-! ## The eight stored payloads are that slab, head by head -/

theorem pay9_apply (v1 : FVec Ideal S3x256 .f32) (v3 : FVec Ideal S3x128 .f32) (v4 : Vec Ideal S3x64 .f32) (v5 : Vec Ideal S64 .f32) (v6 : Vec Ideal S64x8 .f32) (v7 : Vec Ideal S8 .f32) (v26 : FVec Ideal S64x128 .f32) (v36 : FVec Ideal S64x256 .f32) (v42 : FVec Ideal S64x128 .f32) (i : Fin 256) (j : Fin 128) :
    k0_pay9 v1 v3 v4 v5 v6 v7 v26 v36 v42 (ix4 (0 : Fin 1) (0 : Fin 1) i j)
      = (∑ h : Fin 64, k0_pay8 v1 v3 v4 v5 v26 v36 v42 (ix3 h i j) * v6 (ix2 h (0 : Fin 8))) + v7 (ix1 (0 : Fin 8)) := by
  unfold k0_pay9
  exact head_apply 0 v6 v7 (k0_pay8 v1 v3 v4 v5 v26 v36 v42) _ _ _ _ _ _ _ _ _ _ (0 : Fin 8) rfl i j

theorem pay11_10_apply (v1 : FVec Ideal S3x256 .f32) (v3 : FVec Ideal S3x128 .f32) (v4 : Vec Ideal S3x64 .f32) (v5 : Vec Ideal S64 .f32) (v6 : Vec Ideal S64x8 .f32) (v7 : Vec Ideal S8 .f32) (v26 : FVec Ideal S64x128 .f32) (v36 : FVec Ideal S64x256 .f32) (v42 : FVec Ideal S64x128 .f32) (i : Fin 256) (j : Fin 128) :
    k0_pay11 (k0_pay10 v1 v3 v4 v5 v6 v7 v26 v36 v42) (ix4 (0 : Fin 1) (0 : Fin 1) i j)
      = (∑ h : Fin 64, k0_pay8 v1 v3 v4 v5 v26 v36 v42 (ix3 h i j) * v6 (ix2 h (1 : Fin 8))) + v7 (ix1 (1 : Fin 8)) := by
  unfold k0_pay11 k0_pay10
  exact head_apply 1 v6 v7 (k0_pay8 v1 v3 v4 v5 v26 v36 v42) _ _ _ _ _ _ _ _ _ _ (1 : Fin 8) rfl i j

theorem pay12_apply (v6 : Vec Ideal S64x8 .f32) (v7 : Vec Ideal S8 .f32) (v70 : FVec Ideal S64x256x128 .f32) (i : Fin 256) (j : Fin 128) :
    k0_pay12 v6 v7 v70 (ix4 (0 : Fin 1) (0 : Fin 1) i j)
      = (∑ h : Fin 64, v70 (ix3 h i j) * v6 (ix2 h (2 : Fin 8))) + v7 (ix1 (2 : Fin 8)) := by
  unfold k0_pay12
  exact head_apply 2 v6 v7 (v70) _ _ _ _ _ _ _ _ _ _ (2 : Fin 8) rfl i j

theorem pay13_apply (v6 : Vec Ideal S64x8 .f32) (v7 : Vec Ideal S8 .f32) (v70 : FVec Ideal S64x256x128 .f32) (i : Fin 256) (j : Fin 128) :
    k0_pay13 v6 v7 v70 (ix4 (0 : Fin 1) (0 : Fin 1) i j)
      = (∑ h : Fin 64, v70 (ix3 h i j) * v6 (ix2 h (3 : Fin 8))) + v7 (ix1 (3 : Fin 8)) := by
  unfold k0_pay13
  exact head_apply 3 v6 v7 (v70) _ _ _ _ _ _ _ _ _ _ (3 : Fin 8) rfl i j

theorem pay15_14_apply (v6 : Vec Ideal S64x8 .f32) (v7 : Vec Ideal S8 .f32) (v70 : FVec Ideal S64x256x128 .f32) (i : Fin 256) (j : Fin 128) :
    k0_pay15 (k0_pay14 v6 v7 v70) (ix4 (0 : Fin 1) (0 : Fin 1) i j)
      = (∑ h : Fin 64, v70 (ix3 h i j) * v6 (ix2 h (4 : Fin 8))) + v7 (ix1 (4 : Fin 8)) := by
  unfold k0_pay15 k0_pay14
  exact head_apply 4 v6 v7 (v70) _ _ _ _ _ _ _ _ _ _ (4 : Fin 8) rfl i j

theorem pay16_apply (v6 : Vec Ideal S64x8 .f32) (v7 : Vec Ideal S8 .f32) (v70 : FVec Ideal S64x256x128 .f32) (i : Fin 256) (j : Fin 128) :
    k0_pay16 v6 v7 v70 (ix4 (0 : Fin 1) (0 : Fin 1) i j)
      = (∑ h : Fin 64, v70 (ix3 h i j) * v6 (ix2 h (5 : Fin 8))) + v7 (ix1 (5 : Fin 8)) := by
  unfold k0_pay16
  exact head_apply 5 v6 v7 (v70) _ _ _ _ _ _ _ _ _ _ (5 : Fin 8) rfl i j

theorem pay17_apply (v6 : Vec Ideal S64x8 .f32) (v7 : Vec Ideal S8 .f32) (v70 : FVec Ideal S64x256x128 .f32) (i : Fin 256) (j : Fin 128) :
    k0_pay17 v6 v7 v70 (ix4 (0 : Fin 1) (0 : Fin 1) i j)
      = (∑ h : Fin 64, v70 (ix3 h i j) * v6 (ix2 h (6 : Fin 8))) + v7 (ix1 (6 : Fin 8)) := by
  unfold k0_pay17
  exact head_apply 6 v6 v7 (v70) _ _ _ _ _ _ _ _ _ _ (6 : Fin 8) rfl i j

theorem pay18_apply (v6 : Vec Ideal S64x8 .f32) (v7 : Vec Ideal S8 .f32) (v70 : FVec Ideal S64x256x128 .f32) (i : Fin 256) (j : Fin 128) :
    k0_pay18 v6 v7 v70 (ix4 (0 : Fin 1) (0 : Fin 1) i j)
      = (∑ h : Fin 64, v70 (ix3 h i j) * v6 (ix2 h (7 : Fin 8))) + v7 (ix1 (7 : Fin 8)) := by
  unfold k0_pay18
  exact head_apply 7 v6 v7 (v70) _ _ _ _ _ _ _ _ _ _ (7 : Fin 8) rfl i j

/-! ## The eight slabs read back as one buffer -/

/-- A buffer index with head coordinate `k` is outside the slab rectangle of any other head `o`. -/
theorem not_mem_head (o : ℕ) (inb : ∀ a, (![0, o, 0, 0] : Fin 4 → ℕ) a + S1x1x256x128.size a ≤ S1x8x256x128.size a)
    (k : Fin 8) (i : Fin 256) (j : Fin 128) (h : k.val ≠ o) :
    ix4 (0 : Fin 1) k i j ∉ (Rect.unit (s := S1x8x256x128) ![0, o, 0, 0] S1x1x256x128.size inb).set := by
  rw [Rect.mem_set_unit]
  intro hm
  have h1 := hm 1
  change o ≤ k.val ∧ k.val < o + 1 at h1
  omega

/-- The slab rectangle of head `o` places its index `(0, 0, i, j)` at the buffer index `(0, o, i, j)`. -/
theorem emb_head (o : ℕ) (inb : ∀ a, (![0, o, 0, 0] : Fin 4 → ℕ) a + S1x1x256x128.size a ≤ S1x8x256x128.size a)
    (k : Fin 8) (hk : k.val = o) (i : Fin 256) (j : Fin 128) :
    (Rect.unit (s := S1x8x256x128) ![0, o, 0, 0] S1x1x256x128.size inb).emb (ix4 (0 : Fin 1) (0 : Fin 1) i j) = ix4 (0 : Fin 1) k i j := by
  funext a
  apply Fin.ext
  match a with
  | ⟨0, _⟩ => rfl
  | ⟨1, _⟩ => show o + 1 * 0 = k.val; omega
  | ⟨2, _⟩ => show 0 + 1 * i.val = i.val; omega
  | ⟨3, _⟩ => show 0 + 1 * j.val = j.val; omega

/-- Head 0's slab is what the buffer holds on `[0, 0, :, :]`. -/
theorem canon_head0 (p0 p1 p2 p3 p4 p5 p6 p7 : Vec Ideal S1x1x256x128 .f32) (k : Fin 8) (hk : k.val = 0) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p0 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  refine (View.canon_cons_of_not_mem (⟨rO6, p6⟩ : View.Piece (Elt Ideal) S1x8x256x128 .f32) _ (not_mem_head 6 inb_S1x8x256x128_S1x1x256x128_0_6_0_0 k i j (by omega))).trans ?_
  refine (View.canon_cons_of_not_mem (⟨rO5, p5⟩ : View.Piece (Elt Ideal) S1x8x256x128 .f32) _ (not_mem_head 5 inb_S1x8x256x128_S1x1x256x128_0_5_0_0 k i j (by omega))).trans ?_
  refine (View.canon_cons_of_not_mem (⟨rO4, p4⟩ : View.Piece (Elt Ideal) S1x8x256x128 .f32) _ (not_mem_head 4 inb_S1x8x256x128_S1x1x256x128_0_4_0_0 k i j (by omega))).trans ?_
  refine (View.canon_cons_of_not_mem (⟨rO3, p3⟩ : View.Piece (Elt Ideal) S1x8x256x128 .f32) _ (not_mem_head 3 inb_S1x8x256x128_S1x1x256x128_0_3_0_0 k i j (by omega))).trans ?_
  refine (View.canon_cons_of_not_mem (⟨rO2, p2⟩ : View.Piece (Elt Ideal) S1x8x256x128 .f32) _ (not_mem_head 2 inb_S1x8x256x128_S1x1x256x128_0_2_0_0 k i j (by omega))).trans ?_
  refine (View.canon_cons_of_not_mem (⟨rO1, p1⟩ : View.Piece (Elt Ideal) S1x8x256x128 .f32) _ (not_mem_head 1 inb_S1x8x256x128_S1x1x256x128_0_1_0_0 k i j (by omega))).trans ?_
  rw [← emb_head 0 inb_S1x8x256x128_S1x1x256x128_0_0_0_0 k hk i j]
  exact View.canon_cons_emb rO0 p0 _ _

/-- Head 1's slab is what the buffer holds on `[0, 1, :, :]`. -/
theorem canon_head1 (p0 p1 p2 p3 p4 p5 p6 p7 : Vec Ideal S1x1x256x128 .f32) (k : Fin 8) (hk : k.val = 1) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p1 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  refine (View.canon_cons_of_not_mem (⟨rO6, p6⟩ : View.Piece (Elt Ideal) S1x8x256x128 .f32) _ (not_mem_head 6 inb_S1x8x256x128_S1x1x256x128_0_6_0_0 k i j (by omega))).trans ?_
  refine (View.canon_cons_of_not_mem (⟨rO5, p5⟩ : View.Piece (Elt Ideal) S1x8x256x128 .f32) _ (not_mem_head 5 inb_S1x8x256x128_S1x1x256x128_0_5_0_0 k i j (by omega))).trans ?_
  refine (View.canon_cons_of_not_mem (⟨rO4, p4⟩ : View.Piece (Elt Ideal) S1x8x256x128 .f32) _ (not_mem_head 4 inb_S1x8x256x128_S1x1x256x128_0_4_0_0 k i j (by omega))).trans ?_
  refine (View.canon_cons_of_not_mem (⟨rO3, p3⟩ : View.Piece (Elt Ideal) S1x8x256x128 .f32) _ (not_mem_head 3 inb_S1x8x256x128_S1x1x256x128_0_3_0_0 k i j (by omega))).trans ?_
  refine (View.canon_cons_of_not_mem (⟨rO2, p2⟩ : View.Piece (Elt Ideal) S1x8x256x128 .f32) _ (not_mem_head 2 inb_S1x8x256x128_S1x1x256x128_0_2_0_0 k i j (by omega))).trans ?_
  rw [← emb_head 1 inb_S1x8x256x128_S1x1x256x128_0_1_0_0 k hk i j]
  exact View.canon_cons_emb rO1 p1 _ _

/-- Head 2's slab is what the buffer holds on `[0, 2, :, :]`. -/
theorem canon_head2 (p0 p1 p2 p3 p4 p5 p6 p7 : Vec Ideal S1x1x256x128 .f32) (k : Fin 8) (hk : k.val = 2) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p2 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  refine (View.canon_cons_of_not_mem (⟨rO6, p6⟩ : View.Piece (Elt Ideal) S1x8x256x128 .f32) _ (not_mem_head 6 inb_S1x8x256x128_S1x1x256x128_0_6_0_0 k i j (by omega))).trans ?_
  refine (View.canon_cons_of_not_mem (⟨rO5, p5⟩ : View.Piece (Elt Ideal) S1x8x256x128 .f32) _ (not_mem_head 5 inb_S1x8x256x128_S1x1x256x128_0_5_0_0 k i j (by omega))).trans ?_
  refine (View.canon_cons_of_not_mem (⟨rO4, p4⟩ : View.Piece (Elt Ideal) S1x8x256x128 .f32) _ (not_mem_head 4 inb_S1x8x256x128_S1x1x256x128_0_4_0_0 k i j (by omega))).trans ?_
  refine (View.canon_cons_of_not_mem (⟨rO3, p3⟩ : View.Piece (Elt Ideal) S1x8x256x128 .f32) _ (not_mem_head 3 inb_S1x8x256x128_S1x1x256x128_0_3_0_0 k i j (by omega))).trans ?_
  rw [← emb_head 2 inb_S1x8x256x128_S1x1x256x128_0_2_0_0 k hk i j]
  exact View.canon_cons_emb rO2 p2 _ _

/-- Head 3's slab is what the buffer holds on `[0, 3, :, :]`. -/
theorem canon_head3 (p0 p1 p2 p3 p4 p5 p6 p7 : Vec Ideal S1x1x256x128 .f32) (k : Fin 8) (hk : k.val = 3) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p3 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  refine (View.canon_cons_of_not_mem (⟨rO6, p6⟩ : View.Piece (Elt Ideal) S1x8x256x128 .f32) _ (not_mem_head 6 inb_S1x8x256x128_S1x1x256x128_0_6_0_0 k i j (by omega))).trans ?_
  refine (View.canon_cons_of_not_mem (⟨rO5, p5⟩ : View.Piece (Elt Ideal) S1x8x256x128 .f32) _ (not_mem_head 5 inb_S1x8x256x128_S1x1x256x128_0_5_0_0 k i j (by omega))).trans ?_
  refine (View.canon_cons_of_not_mem (⟨rO4, p4⟩ : View.Piece (Elt Ideal) S1x8x256x128 .f32) _ (not_mem_head 4 inb_S1x8x256x128_S1x1x256x128_0_4_0_0 k i j (by omega))).trans ?_
  rw [← emb_head 3 inb_S1x8x256x128_S1x1x256x128_0_3_0_0 k hk i j]
  exact View.canon_cons_emb rO3 p3 _ _

/-- Head 4's slab is what the buffer holds on `[0, 4, :, :]`. -/
theorem canon_head4 (p0 p1 p2 p3 p4 p5 p6 p7 : Vec Ideal S1x1x256x128 .f32) (k : Fin 8) (hk : k.val = 4) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p4 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  refine (View.canon_cons_of_not_mem (⟨rO6, p6⟩ : View.Piece (Elt Ideal) S1x8x256x128 .f32) _ (not_mem_head 6 inb_S1x8x256x128_S1x1x256x128_0_6_0_0 k i j (by omega))).trans ?_
  refine (View.canon_cons_of_not_mem (⟨rO5, p5⟩ : View.Piece (Elt Ideal) S1x8x256x128 .f32) _ (not_mem_head 5 inb_S1x8x256x128_S1x1x256x128_0_5_0_0 k i j (by omega))).trans ?_
  rw [← emb_head 4 inb_S1x8x256x128_S1x1x256x128_0_4_0_0 k hk i j]
  exact View.canon_cons_emb rO4 p4 _ _

/-- Head 5's slab is what the buffer holds on `[0, 5, :, :]`. -/
theorem canon_head5 (p0 p1 p2 p3 p4 p5 p6 p7 : Vec Ideal S1x1x256x128 .f32) (k : Fin 8) (hk : k.val = 5) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p5 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  refine (View.canon_cons_of_not_mem (⟨rO6, p6⟩ : View.Piece (Elt Ideal) S1x8x256x128 .f32) _ (not_mem_head 6 inb_S1x8x256x128_S1x1x256x128_0_6_0_0 k i j (by omega))).trans ?_
  rw [← emb_head 5 inb_S1x8x256x128_S1x1x256x128_0_5_0_0 k hk i j]
  exact View.canon_cons_emb rO5 p5 _ _

/-- Head 6's slab is what the buffer holds on `[0, 6, :, :]`. -/
theorem canon_head6 (p0 p1 p2 p3 p4 p5 p6 p7 : Vec Ideal S1x1x256x128 .f32) (k : Fin 8) (hk : k.val = 6) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p6 (ix4 (0 : Fin 1) (0 : Fin 1) i j) := by
  refine (View.canon_cons_of_not_mem (⟨rO7, p7⟩ : View.Piece (Elt Ideal) S1x8x256x128 .f32) _ (not_mem_head 7 inb_S1x8x256x128_S1x1x256x128_0_7_0_0 k i j (by omega))).trans ?_
  rw [← emb_head 6 inb_S1x8x256x128_S1x1x256x128_0_6_0_0 k hk i j]
  exact View.canon_cons_emb rO6 p6 _ _

/-- Head 7's slab is what the buffer holds on `[0, 7, :, :]`. -/
theorem canon_head7 (p0 p1 p2 p3 p4 p5 p6 p7 : Vec Ideal S1x1x256x128 .f32) (k : Fin 8) (hk : k.val = 7) (i : Fin 256) (j : Fin 128) :
    View.canon ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt Ideal) S1x8x256x128 .f32)) (ix4 (0 : Fin 1) k i j)
      = p7 (ix4 (0 : Fin 1) (0 : Fin 1) i j) := by
  rw [← emb_head 7 inb_S1x8x256x128_S1x1x256x128_0_7_0_0 k hk i j]
  exact View.canon_cons_emb rO7 p7 _ _

/-! ## The buffer at an index -/

theorem zeros1 : (![0] : Fin 1 → ℕ) = fun _ => 0 := funext fun a => by fin_cases a <;> rfl
theorem zeros2 : (![0, 0] : Fin 2 → ℕ) = fun _ => 0 := funext fun a => by fin_cases a <;> rfl
theorem zeros3 : (![0, 0, 0] : Fin 3 → ℕ) = fun _ => 0 := funext fun a => by fin_cases a <;> rfl

/-- THE OUTPUT BUFFER AFTER THE BODY AT `(0, k, i, j)`, from the six loaded blocks: the sum over the hidden units `h` of the clamped
    difference of the `j`-tile's and the `i`-tile's projections plus the first bias, times `W2[h, k]`, plus `b2[k]`. -/
theorem outBlock_apply (x0 : Vec Ideal S1x3x256 .f32) (x1 : Vec Ideal S1x3x128 .f32) (x2 : Vec Ideal S3x64 .f32) (x3 : Vec Ideal S64 .f32)
    (x4 : Vec Ideal S64x8 .f32) (x5 : Vec Ideal S8 .f32) (k : Fin 8) (i : Fin 256) (j : Fin 128) :
    outBlock (F := Ideal) x0 x1 x2 x3 x4 x5 (ix4 (0 : Fin 1) k i j)
      = (∑ h : Fin 64, max (projTile x2 x1 h j - projTile x2 x0 h i + x3 (ix1 h)) 0 * x4 (ix2 h k)) + x5 (ix1 k) := by
  unfold outBlock slab0 slab1
  simp only [View.ld_unit_zero (S := S1x3x256) zeros3, View.ld_unit_zero (S := S1x3x128) zeros3, View.ld_unit_zero (S := S3x64) zeros2,
    View.ld_unit_zero (S := S64) zeros1, View.ld_unit_zero (S := S64x8) zeros2, View.ld_unit_zero (S := S8) zeros1]
  match k with
  | ⟨0, _⟩ =>
    refine (canon_head0 _ _ _ _ _ _ _ _ _ rfl i j).trans ?_
    refine (pay9_apply _ _ _ _ _ _ _ _ _ i j).trans ?_
    exact congrArg₂ (· + ·) (Finset.sum_congr rfl fun h _ => congrArg (· * _) (hid_apply x0 x1 x2 x3 h i j)) rfl
  | ⟨1, _⟩ =>
    refine (canon_head1 _ _ _ _ _ _ _ _ _ rfl i j).trans ?_
    refine (pay11_10_apply _ _ _ _ _ _ _ _ _ i j).trans ?_
    exact congrArg₂ (· + ·) (Finset.sum_congr rfl fun h _ => congrArg (· * _) (hid_apply x0 x1 x2 x3 h i j)) rfl
  | ⟨2, _⟩ =>
    refine (canon_head2 _ _ _ _ _ _ _ _ _ rfl i j).trans ?_
    refine (pay12_apply _ _ _ i j).trans ?_
    exact congrArg₂ (· + ·) (Finset.sum_congr rfl fun h _ => congrArg (· * _) (hid_apply x0 x1 x2 x3 h i j)) rfl
  | ⟨3, _⟩ =>
    refine (canon_head3 _ _ _ _ _ _ _ _ _ rfl i j).trans ?_
    refine (pay13_apply _ _ _ i j).trans ?_
    exact congrArg₂ (· + ·) (Finset.sum_congr rfl fun h _ => congrArg (· * _) (hid_apply x0 x1 x2 x3 h i j)) rfl
  | ⟨4, _⟩ =>
    refine (canon_head4 _ _ _ _ _ _ _ _ _ rfl i j).trans ?_
    refine (pay15_14_apply _ _ _ i j).trans ?_
    exact congrArg₂ (· + ·) (Finset.sum_congr rfl fun h _ => congrArg (· * _) (hid_apply x0 x1 x2 x3 h i j)) rfl
  | ⟨5, _⟩ =>
    refine (canon_head5 _ _ _ _ _ _ _ _ _ rfl i j).trans ?_
    refine (pay16_apply _ _ _ i j).trans ?_
    exact congrArg₂ (· + ·) (Finset.sum_congr rfl fun h _ => congrArg (· * _) (hid_apply x0 x1 x2 x3 h i j)) rfl
  | ⟨6, _⟩ =>
    refine (canon_head6 _ _ _ _ _ _ _ _ _ rfl i j).trans ?_
    refine (pay17_apply _ _ _ i j).trans ?_
    exact congrArg₂ (· + ·) (Finset.sum_congr rfl fun h _ => congrArg (· * _) (hid_apply x0 x1 x2 x3 h i j)) rfl
  | ⟨7, _⟩ =>
    refine (canon_head7 _ _ _ _ _ _ _ _ _ rfl i j).trans ?_
    refine (pay18_apply _ _ _ i j).trans ?_
    exact congrArg₂ (· + ·) (Finset.sum_congr rfl fun h _ => congrArg (· * _) (hid_apply x0 x1 x2 x3 h i j)) rfl

end Cert.KernelIdeal.HandValue

end
-- ==== Proof.KernelIdealFinal.lean ====
/-
  From blocks to the array: after the run the output array is `Cert.Spec.G` of the argument arrays.

  Grid point `t = (b, ti, tj)` stages rows `256·ti …` of batch `b` of the coordinate array through the first window and
  rows `128·tj …` through the second, the two weight matrices and the two biases whole, and writes the output block
  `[b, :, 256·ti …, 128·tj …]` back. The body's block is the specification's function of those input blocks, so what
  point `t` writes back is block `t` of `G` of the whole arrays; the sixty-four blocks tile the output array.
-/
import proofs.«168165_j79061757985077_1_alg».proof.Proof.KernelIdealData
import proofs.«168165_j79061757985077_1_alg».proof.Proof.Spec
import proofs.«168165_j79061757985077_1_alg».proof.Proof.KernelIdealValueBlock
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-! ## The body's block is the specification's function of the staged blocks -/

/-- If the first window's block is rows `256·TI + i` of batch `B` of the coordinate array, the second's rows
    `128·TJ + j`, and the other four blocks the whole arrays, then the body's output block at `(k, i, j)` is the
    specification at `(B, k, 256·TI + i, 128·TJ + j)`. -/
theorem block_eq (xyz : S2x3x1024.Idx → EReal) (W1 : S3x64.Idx → EReal) (b1 : S64.Idx → EReal) (W2 : S64x8.Idx → EReal) (b2 : S8.Idx → EReal)
    (B TI TJ : ℕ) (hB : B < 2) (hTI : TI < 4) (hTJ : TJ < 8)
    (x0 : Vec Ideal S1x3x256 .f32) (x1 : Vec Ideal S1x3x128 .f32) (x2 : Vec Ideal S3x64 .f32) (x3 : Vec Ideal S64 .f32)
    (x4 : Vec Ideal S64x8 .f32) (x5 : Vec Ideal S8 .f32)
    (h0 : ∀ (c : Fin 3) (i : Fin 256), x0 (ix3 (0 : Fin 1) c i) = xyz (ix3 (⟨B, hB⟩ : Fin 2) c (⟨TI * 256 + i.val, by omega⟩ : Fin 1024)))
    (h1 : ∀ (c : Fin 3) (j : Fin 128), x1 (ix3 (0 : Fin 1) c j) = xyz (ix3 (⟨B, hB⟩ : Fin 2) c (⟨TJ * 128 + j.val, by omega⟩ : Fin 1024)))
    (h2 : x2 = W1) (h3 : x3 = b1) (h4 : x4 = W2) (h5 : x5 = b2) (k : Fin 8) (i : Fin 256) (j : Fin 128) :
    outBlock (F := Ideal) x0 x1 x2 x3 x4 x5 (ix4 (0 : Fin 1) k i j)
      = Cert.Spec.G xyz W1 b1 W2 b2 (ix4 (⟨B, hB⟩ : Fin 2) k (⟨TI * 256 + i.val, by omega⟩ : Fin 1024) (⟨TJ * 128 + j.val, by omega⟩ : Fin 1024)) := by
  rw [outBlock_apply, Cert.Spec.G_ix4]
  subst h2 h3 h4 h5
  unfold Cert.Spec.outAt Cert.Spec.hidden Cert.Spec.proj projTile
  simp only [h0, h1]

/-! ## The index maps over the grid -/

theorem idx_facts : ∀ t : Fin cfg0.N,
    win0_0.index t (0 : Fin 3) = win0_6.index t (0 : Fin 4) ∧ win0_0.index t (1 : Fin 3) = 0 ∧ win0_0.index t (2 : Fin 3) = win0_6.index t (2 : Fin 4)
    ∧ win0_1.index t (0 : Fin 3) = win0_6.index t (0 : Fin 4) ∧ win0_1.index t (1 : Fin 3) = 0 ∧ win0_1.index t (2 : Fin 3) = win0_6.index t (3 : Fin 4)
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 4) ≤ 1 ∧ win0_6.index t (1 : Fin 4) = 0 ∧ win0_6.index t (2 : Fin 4) ≤ 3 ∧ win0_6.index t (3 : Fin 4) ≤ 7 :=
  (by decide +kernel : ∀ t : Fin grid0.N, _)

theorem idx_onto : ∀ (q0 : Fin 2) (q2 : Fin 4) (q3 : Fin 8), ∃ t : Fin cfg0.N, win0_6.index t = ![q0.val, 0, q2.val, q3.val] :=
  (by decide +kernel : ∀ (q0 : Fin 2) (q2 : Fin 4) (q3 : Fin 8), ∃ t : Fin grid0.N, win0_6.index t = ![q0.val, 0, q2.val, q3.val])

/-! ## The staged blocks, read at an index -/

variable (m : (ℓ : Loc nD τ sig) → Buf (Elt Ideal) ℓ)

theorem iblk0_apply (c : Dev nD) (t : Fin cfg0.N) (c' : Fin 3) (i : Fin 256) (hB : win0_6.index t (0 : Fin 4) < 2) (hTI : win0_6.index t (2 : Fin 4) < 4) :
    iblk m c 0 t (ix3 (0 : Fin 1) c' i)
      = V m c main_arg0 (ix3 (⟨win0_6.index t (0 : Fin 4), hB⟩ : Fin 2) c' (⟨win0_6.index t (2 : Fin 4) * 256 + i.val, by omega⟩ : Fin 1024)) := by
  obtain ⟨e0, e1, e2, -⟩ := idx_facts t
  show V m c main_arg0 (((cfg0.win 0).blk t).view.emb (ix3 (0 : Fin 1) c' i)) = _
  refine congrArg (V m c main_arg0) ?_
  funext a; apply Fin.ext
  match a with
  | ⟨0, _⟩ => show win0_0.index t (0 : Fin 3) * 1 + 1 * 0 = win0_6.index t (0 : Fin 4); omega
  | ⟨1, _⟩ => show win0_0.index t (1 : Fin 3) * 3 + 1 * c'.val = c'.val; omega
  | ⟨2, _⟩ => show win0_0.index t (2 : Fin 3) * 256 + 1 * i.val = win0_6.index t (2 : Fin 4) * 256 + i.val; omega

theorem iblk1_apply (c : Dev nD) (t : Fin cfg0.N) (c' : Fin 3) (j : Fin 128) (hB : win0_6.index t (0 : Fin 4) < 2) (hTJ : win0_6.index t (3 : Fin 4) < 8) :
    iblk m c 1 t (ix3 (0 : Fin 1) c' j)
      = V m c main_arg0 (ix3 (⟨win0_6.index t (0 : Fin 4), hB⟩ : Fin 2) c' (⟨win0_6.index t (3 : Fin 4) * 128 + j.val, by omega⟩ : Fin 1024)) := by
  obtain ⟨-, -, -, e3, e4, e5, -⟩ := idx_facts t
  show V m c main_arg0 (((cfg0.win 1).blk t).view.emb (ix3 (0 : Fin 1) c' j)) = _
  refine congrArg (V m c main_arg0) ?_
  funext a; apply Fin.ext
  match a with
  | ⟨0, _⟩ => show win0_1.index t (0 : Fin 3) * 1 + 1 * 0 = win0_6.index t (0 : Fin 4); omega
  | ⟨1, _⟩ => show win0_1.index t (1 : Fin 3) * 3 + 1 * c'.val = c'.val; omega
  | ⟨2, _⟩ => show win0_1.index t (2 : Fin 3) * 128 + 1 * j.val = win0_6.index t (3 : Fin 4) * 128 + j.val; omega

theorem iblk2_eq (c : Dev nD) (t : Fin cfg0.N) : (iblk m c 2 t : Vec Ideal S3x64 .f32) = V m c main_arg1 := by
  obtain ⟨-, -, -, -, -, -, e6, e7, -⟩ := idx_facts t
  funext y
  show V m c main_arg1 (((cfg0.win 2).blk t).view.emb y) = V m c main_arg1 y
  refine congrArg (V m c main_arg1) ?_
  funext a; apply Fin.ext
  match a with
  | ⟨0, _⟩ => show win0_2.index t (0 : Fin 2) * 3 + 1 * (y 0).val = (y 0).val; omega
  | ⟨1, _⟩ => show win0_2.index t (1 : Fin 2) * 64 + 1 * (y 1).val = (y 1).val; omega

theorem iblk3_eq (c : Dev nD) (t : Fin cfg0.N) : (iblk m c 3 t : Vec Ideal S64 .f32) = V m c main_arg2 := by
  obtain ⟨-, -, -, -, -, -, -, -, e8, -⟩ := idx_facts t
  funext y
  show V m c main_arg2 (((cfg0.win 3).blk t).view.emb y) = V m c main_arg2 y
  refine congrArg (V m c main_arg2) ?_
  funext a; apply Fin.ext
  match a with
  | ⟨0, _⟩ => show win0_3.index t (0 : Fin 1) * 64 + 1 * (y 0).val = (y 0).val; omega

theorem iblk4_eq (c : Dev nD) (t : Fin cfg0.N) : (iblk m c 4 t : Vec Ideal S64x8 .f32) = V m c main_arg3 := by
  obtain ⟨-, -, -, -, -, -, -, -, -, e9, e10, -⟩ := idx_facts t
  funext y
  show V m c main_arg3 (((cfg0.win 4).blk t).view.emb y) = V m c main_arg3 y
  refine congrArg (V m c main_arg3) ?_
  funext a; apply Fin.ext
  match a with
  | ⟨0, _⟩ => show win0_4.index t (0 : Fin 2) * 64 + 1 * (y 0).val = (y 0).val; omega
  | ⟨1, _⟩ => show win0_4.index t (1 : Fin 2) * 8 + 1 * (y 1).val = (y 1).val; omega

theorem iblk5_eq (c : Dev nD) (t : Fin cfg0.N) : (iblk m c 5 t : Vec Ideal S8 .f32) = V m c main_arg4 := by
  obtain ⟨-, -, -, -, -, -, -, -, -, -, -, e11, -⟩ := idx_facts t
  funext y
  show V m c main_arg4 (((cfg0.win 5).blk t).view.emb y) = V m c main_arg4 y
  refine congrArg (V m c main_arg4) ?_
  funext a; apply Fin.ext
  match a with
  | ⟨0, _⟩ => show win0_5.index t (0 : Fin 1) * 8 + 1 * (y 0).val = (y 0).val; omega

/-! ## What a point writes back -/

theorem flushed_eq (c : Dev nD) (t : Fin cfg0.N) :
    (dats m 0 c).flushed 6 t = ((cfg0.win 6).blk t).view.read (Elt Ideal)
      (Cert.Spec.G (V m c main_arg0) (V m c main_arg1) (V m c main_arg2) (V m c main_arg3) (V m c main_arg4)) := by
  show (cfg0.win 6).cut (grid0.coords t) ((dats m 0 c).after 6 t) = _
  rw [after0_6]
  obtain ⟨e0, e1, e2, e3, e4, e5, e6, e7, e8, e9, e10, e11, l0, l1, l2, l3⟩ := idx_facts t
  funext y
  obtain ⟨q, k, i, j, rfl⟩ : ∃ (q : Fin 1) (k : Fin 8) (i : Fin 256) (j : Fin 128), y = ix4 q k i j := ⟨y 0, y 1, y 2, y 3, eq_ix4 y⟩
  obtain rfl : q = 0 := Subsingleton.elim _ _
  show outBlock (iblk m c 0 t) (iblk m c 1 t) (iblk m c 2 t) (iblk m c 3 t) (iblk m c 4 t) (iblk m c 5 t) (ix4 (0 : Fin 1) k i j)
      = Cert.Spec.G (V m c main_arg0) (V m c main_arg1) (V m c main_arg2) (V m c main_arg3) (V m c main_arg4)
          (((cfg0.win 6).blk t).view.emb (ix4 (0 : Fin 1) k i j))
  refine (block_eq (V m c main_arg0) (V m c main_arg1) (V m c main_arg2) (V m c main_arg3) (V m c main_arg4)
    (win0_6.index t (0 : Fin 4)) (win0_6.index t (2 : Fin 4)) (win0_6.index t (3 : Fin 4)) (by omega) (by omega) (by omega)
    (iblk m c 0 t) (iblk m c 1 t) (iblk m c 2 t) (iblk m c 3 t) (iblk m c 4 t) (iblk m c 5 t)
    (fun c' i' => iblk0_apply m c t c' i' (by omega) (by omega)) (fun c' j' => iblk1_apply m c t c' j' (by omega) (by omega))
    (iblk2_eq m c t) (iblk3_eq m c t) (iblk4_eq m c t) (iblk5_eq m c t) k i j).trans ?_
  refine congrArg _ ?_
  funext a; apply Fin.ext
  match a with
  | ⟨0, _⟩ => show win0_6.index t (0 : Fin 4) = win0_6.index t (0 : Fin 4) * 1 + 1 * 0; omega
  | ⟨1, _⟩ => show k.val = win0_6.index t (1 : Fin 4) * 8 + 1 * k.val; omega
  | ⟨2, _⟩ => show win0_6.index t (2 : Fin 4) * 256 + i.val = win0_6.index t (2 : Fin 4) * 256 + 1 * i.val; omega
  | ⟨3, _⟩ => show win0_6.index t (3 : Fin 4) * 128 + j.val = win0_6.index t (3 : Fin 4) * 128 + 1 * j.val; omega

/-! ## The blocks tile the array -/

theorem mem_blk (t : Fin cfg0.N) (i : S2x8x1024x1024.Idx) :
    i ∈ ((cfg0.win 6).blk t).view.set ↔ ∀ a : Fin 4, win0_6.index t a * S1x8x256x128.size a ≤ (i a).val
      ∧ (i a).val < win0_6.index t a * S1x8x256x128.size a + S1x8x256x128.size a := by
  show i ∈ ((View.whole main_v0).slice (win0_6.rect t)).set ↔ _
  rw [View.set_slice_whole, Rect.mem_set_unit]
  exact Iff.rfl

theorem cover (i : S2x8x1024x1024.Idx) : ∃ t : Fin cfg0.N, (cfg0.win 6).flush t = true ∧ i ∈ ((cfg0.win 6).blk t).view.set := by
  have hi0 : (i 0).val < 2 := (i 0).isLt
  have hi1 : (i 1).val < 8 := (i 1).isLt
  have hi2 : (i 2).val < 1024 := (i 2).isLt
  have hi3 : (i 3).val < 1024 := (i 3).isLt
  obtain ⟨t, ht⟩ := idx_onto ⟨(i 0).val, hi0⟩ ⟨(i 2).val / 256, by omega⟩ ⟨(i 3).val / 128, by omega⟩
  have q0 : win0_6.index t (0 : Fin 4) = (i 0).val := congrFun ht 0
  have q1 : win0_6.index t (1 : Fin 4) = 0 := congrFun ht 1
  have q2 : win0_6.index t (2 : Fin 4) = (i 2).val / 256 := congrFun ht 2
  have q3 : win0_6.index t (3 : Fin 4) = (i 3).val / 128 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 8 ≤ (i 1).val ∧ (i 1).val < win0_6.index t (1 : Fin 4) * 8 + 8; omega
  | ⟨2, _⟩ => show win0_6.index t (2 : Fin 4) * 256 ≤ (i 2).val ∧ (i 2).val < win0_6.index t (2 : Fin 4) * 256 + 256; omega
  | ⟨3, _⟩ => show win0_6.index t (3 : Fin 4) * 128 ≤ (i 3).val ∧ (i 3).val < win0_6.index t (3 : Fin 4) * 128 + 128; omega

/-- After the run the output array is the specification's function of the argument arrays. -/
theorem final (c : Dev nD) : (dats m 0 c).arrAt 6 cfg0.N
    = Cert.Spec.G (V m c main_arg0) (V m c main_arg1) (V m c main_arg2) (V m c main_arg3) (V m c main_arg4) :=
  (dats m 0 c).arrAt_eq_of_cover 6 _ (fun t _ => flushed_eq m c t) cover

end Cert.KernelIdeal.HandValue

end
-- ==== Proof.KernelIdealResult.lean ====
/-
  The idealized kernel's run with its result named: every weakly fair execution terminates with the output array at
  `Cert.Spec.G` of the launch contents of the five argument arrays, and the argument arrays unchanged.
-/
import proofs.«168165_j79061757985077_1_alg».proof.Proof.KernelIdealLaunch
import proofs.«168165_j79061757985077_1_alg».proof.Proof.KernelIdealFinal

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

theorem run_G (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
          = Cert.Spec.G (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 6).trans (final m c),
     ((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3)),
     ((h c).1 4).trans (((dats m 0 c).arrAt_in 4 rfl _).trans (A_eq m c 4)),
     ((h c).1 5).trans (((dats m 0 c).arrAt_in 5 rfl _).trans (A_eq m c 5))⟩) (run_main m ρ)

end Cert.KernelIdeal.HandValue

end
-- ==== Proof.RefAlgebra.lean ====
/-
  The algebraic law behind the reference: on finite values the first layer distributes over the subtraction.

  For three coordinates `c`, finite points `xj`, `xi` and finite weights `w`,
      Σ_c (xj c − xi c) · w c  =  (0 + w 0 · xj 0 + w 1 · xj 1 + w 2 · xj 2) − (0 + w 0 · xi 0 + w 1 · xi 1 + w 2 · xi 2).
  On the extended reals the law fails when an operand is infinite (∞ − ∞ on one side only), so it is stated for
  operands that are coercions of reals; the coercion is pushed out and the law is an identity of the real field.
-/
import Mathlib.Data.EReal.Operations
import Mathlib.Algebra.BigOperators.Fin
import Mathlib.Tactic.Ring

namespace Cert.RefBridge

/-- The law over real operands, read on the extended reals. -/
theorem sum_sub_mul_coe (xj xi w : Fin 3 → ℝ) :
    ∑ c : Fin 3, (((xj c : ℝ) : EReal) - ((xi c : ℝ) : EReal)) * ((w c : ℝ) : EReal)
      = (0 + ((w 0 : ℝ) : EReal) * ((xj 0 : ℝ) : EReal) + ((w 1 : ℝ) : EReal) * ((xj 1 : ℝ) : EReal)
            + ((w 2 : ℝ) : EReal) * ((xj 2 : ℝ) : EReal))
        - (0 + ((w 0 : ℝ) : EReal) * ((xi 0 : ℝ) : EReal) + ((w 1 : ℝ) : EReal) * ((xi 1 : ℝ) : EReal)
            + ((w 2 : ℝ) : EReal) * ((xi 2 : ℝ) : EReal)) := by
  rw [Fin.sum_univ_three]
  simp only [← EReal.coe_zero, ← EReal.coe_mul, ← EReal.coe_add, ← EReal.coe_sub]
  congr 1
  ring

/-- The law for extended-real operands that are finite. -/
theorem sum_sub_mul (xj xi w : Fin 3 → EReal) (hj : ∀ c, ∃ r : ℝ, xj c = (r : EReal))
    (hi : ∀ c, ∃ r : ℝ, xi c = (r : EReal)) (hw : ∀ c, ∃ r : ℝ, w c = (r : EReal)) :
    ∑ c : Fin 3, (xj c - xi c) * w c
      = (0 + w 0 * xj 0 + w 1 * xj 1 + w 2 * xj 2) - (0 + w 0 * xi 0 + w 1 * xi 1 + w 2 * xi 2) := by
  choose rj hrj using hj
  choose ri hri using hi
  choose rw' hrw using hw
  simp only [hrj, hri, hrw]
  exact sum_sub_mul_coe rj ri rw'

end Cert.RefBridge
-- ==== Proof.RefIndex.lean ====
/-
  Where the reference reads its arguments.

  The reference builds its 4-dimensional intermediate arrays by transposing and broadcasting; each such layout stage
  reads its operand at an index computed from the result's index. Composed along the program, at the result
  coordinates `(b, i, j, h)` (batch, first point, second point, hidden unit or head) these index maps are the
  plain coordinate tuples below: the broadcast of the points along the first pair axis reads point `j`, the one along
  the second pair axis reads point `i`, and the biases and weights are read at their own one or two coordinates.
-/
import proofs.«168165_j79061757985077_1_alg».proof.Proof.Gen.ReferenceIdeal.Read
import Idealize.ShloMosaic.Lib.ValueIdx

noncomputable section

namespace Cert.RefBridge

open Cert.ReferenceIdeal Cert.ReferenceIdeal.Read Idealize.ShloMosaic Idealize.ShloMosaic.ValueIdx

/-- The transposed result at `(b, k, i, j)` reads the untransposed array at `(b, i, j, k)`. -/
theorem idx_out (b : Fin 2) (k : Fin 8) (i j : Fin 1024) :
    idx_main_v15 (ix4 b k i j) = ix4 b i j k :=
  funext fun a => by match a with | ⟨0, _⟩ => rfl | ⟨1, _⟩ => rfl | ⟨2, _⟩ => rfl | ⟨3, _⟩ => rfl

/-- The second bias, broadcast to the result's shape, is read at the head `k`. -/
theorem idx_b2 (b : Fin 2) (i j : Fin 1024) (k : Fin 8) :
    idx_main_v12 (idx_main_v13 (ix4 b i j k)) = ix1 k :=
  funext fun a => by match a with | ⟨0, _⟩ => rfl

/-- The second contraction's left operand at hidden unit `h`: the hidden array at `(b, i, j, h)`. -/
theorem lidx_second (b : Fin 2) (i j : Fin 1024) (k : Fin 8) (h : Fin 64) :
    lidx_main_v11 (ix4 b i j k) h = ix4 b i j h :=
  funext fun a => by match a with | ⟨0, _⟩ => rfl | ⟨1, _⟩ => rfl | ⟨2, _⟩ => rfl | ⟨3, _⟩ => rfl

/-- The second contraction's right operand at hidden unit `h`: the second weight matrix at `(h, k)`. -/
theorem ridx_second (b : Fin 2) (i j : Fin 1024) (k : Fin 8) (h : Fin 64) :
    ridx_main_v11 (ix4 b i j k) h = ix2 h k :=
  funext fun a => by match a with | ⟨0, _⟩ => rfl | ⟨1, _⟩ => rfl

/-- The first bias, broadcast to the hidden array's shape, is read at the hidden unit `h`. -/
theorem idx_b1 (b : Fin 2) (i j : Fin 1024) (h : Fin 64) :
    idx_main_v7 (idx_main_v8 (ix4 b i j h)) = ix1 h :=
  funext fun a => by match a with | ⟨0, _⟩ => rfl

/-- The first contraction's right operand at coordinate `c`: the first weight matrix at `(c, h)`. -/
theorem ridx_first (b : Fin 2) (i j : Fin 1024) (h : Fin 64) (c : Fin 3) :
    ridx_main_v6 (ix4 b i j h) c = ix2 c h :=
  funext fun a => by match a with | ⟨0, _⟩ => rfl | ⟨1, _⟩ => rfl

/-- The minuend of the pairwise difference at `(b, i, j, c)` is coordinate `c` of point `j`. -/
theorem idx_minuend (b : Fin 2) (i j : Fin 1024) (h : Fin 64) (c : Fin 3) :
    idx_main_v0 (idx_main_v1 (idx_main_v3 (lidx_main_v6 (ix4 b i j h) c))) = ix3 b c j :=
  funext fun a => by match a with | ⟨0, _⟩ => rfl | ⟨1, _⟩ => rfl | ⟨2, _⟩ => rfl

/-- The subtrahend of the pairwise difference at `(b, i, j, c)` is coordinate `c` of point `i`. -/
theorem idx_subtrahend (b : Fin 2) (i j : Fin 1024) (h : Fin 64) (c : Fin 3) :
    idx_main_v0 (idx_main_v2 (idx_main_v4 (lidx_main_v6 (ix4 b i j h) c))) = ix3 b c i :=
  funext fun a => by match a with | ⟨0, _⟩ => rfl | ⟨1, _⟩ => rfl | ⟨2, _⟩ => rfl

end Cert.RefBridge

end
-- ==== Proof.RefValue.lean ====
/-
  The reference computes the common specification, on finite points and first-layer weights.

  Read index by index, the reference forms for each pair of points `(i, j)` and coordinate `c` the difference
  `xyz[b, c, j] − xyz[b, c, i]`, contracts it against the first weight matrix, adds the first bias, clamps at zero and
  contracts against the second weight matrix, adding the second bias. The specification instead projects each point
  first and subtracts the projections. The two agree by distributing the first contraction over the subtraction, which
  is an identity of the reals and needs the points and the first weights finite.
-/
import proofs.«168165_j79061757985077_1_alg».proof.Proof.Gen.ReferenceIdeal.Read
import proofs.«168165_j79061757985077_1_alg».proof.Proof.Spec
import proofs.«168165_j79061757985077_1_alg».proof.Proof.RefAlgebra
import proofs.«168165_j79061757985077_1_alg».proof.Proof.RefIndex

noncomputable section

namespace Cert.RefBridge

open Cert.ReferenceIdeal Cert.ReferenceIdeal.Read Idealize.ShloMosaic Idealize.ShloMosaic.ValueIdx

/-- The pairwise difference at `(b, i, j, c)`: coordinate `c` of point `j` minus that of point `i`. -/
theorem diff_at (x0 : (⟨S2x3x1024, .f32⟩ : BufTy).Contents (Elt Ideal)) (b : Fin 2) (i j : Fin 1024) (h : Fin 64)
    (c : Fin 3) :
    val_main_v5 (F := Ideal) x0 (lidx_main_v6 (ix4 b i j h) c) = x0 (ix3 b c j) - x0 (ix3 b c i) := by
  rw [val_main_v5_apply, val_main_v3_apply, val_main_v1_apply, val_main_v0_apply, val_main_v4_apply,
    val_main_v2_apply, val_main_v0_apply, idx_minuend, idx_subtrahend]
  rfl

/-- The first contraction at `(b, i, j, h)` is the difference of the two points' projections onto hidden unit `h`. -/
theorem first_layer_at (x0 : (⟨S2x3x1024, .f32⟩ : BufTy).Contents (Elt Ideal))
    (x1 : (⟨S3x64, .f32⟩ : BufTy).Contents (Elt Ideal))
    (hx : ∀ i, ∃ r : ℝ, x0 i = (r : EReal)) (hw : ∀ i, ∃ r : ℝ, x1 i = (r : EReal))
    (b : Fin 2) (i j : Fin 1024) (h : Fin 64) :
    val_main_v6 (F := Ideal) x0 x1 (ix4 b i j h) = Cert.Spec.proj x0 x1 b h j - Cert.Spec.proj x0 x1 b h i := by
  rw [val_main_v6_apply]
  simp only [diff_at, ridx_first]
  exact sum_sub_mul (fun c => x0 (ix3 b c j)) (fun c => x0 (ix3 b c i)) (fun c => x1 (ix2 c h))
    (fun c => hx _) (fun c => hx _) (fun c => hw _)

/-- The clamped hidden array at `(b, i, j, h)` is the specification's hidden unit. -/
theorem hidden_at (x0 : (⟨S2x3x1024, .f32⟩ : BufTy).Contents (Elt Ideal))
    (x1 : (⟨S3x64, .f32⟩ : BufTy).Contents (Elt Ideal)) (x2 : (⟨S64, .f32⟩ : BufTy).Contents (Elt Ideal))
    (hx : ∀ i, ∃ r : ℝ, x0 i = (r : EReal)) (hw : ∀ i, ∃ r : ℝ, x1 i = (r : EReal))
    (b : Fin 2) (i j : Fin 1024) (h : Fin 64) :
    val_main_v10 (F := Ideal) x0 x1 x2 (ix4 b i j h) = Cert.Spec.hidden x0 x1 x2 b h i j := by
  rw [val_main_v10_apply, val_main_v9_apply, val_main_v8_apply, val_main_v7_apply, idx_b1,
    val_main_call0_v0_apply, val_main_call0_cst_apply, first_layer_at x0 x1 hx hw]
  simp only [Ideal.maximumf_def, Ideal.addf_def, Ideal.ofBits_def, Ideal.ofBits_zero_f32]
  rfl

/-- THE REFERENCE IS THE SPECIFICATION, for finite points and first-layer weights. -/
theorem ref_eq_G (x0 : (⟨S2x3x1024, .f32⟩ : BufTy).Contents (Elt Ideal))
    (x1 : (⟨S3x64, .f32⟩ : BufTy).Contents (Elt Ideal)) (x2 : (⟨S64, .f32⟩ : BufTy).Contents (Elt Ideal))
    (x3 : (⟨S64x8, .f32⟩ : BufTy).Contents (Elt Ideal)) (x4 : (⟨S8, .f32⟩ : BufTy).Contents (Elt Ideal))
    (hx : ∀ i, ∃ r : ℝ, x0 i = (r : EReal)) (hw : ∀ i, ∃ r : ℝ, x1 i = (r : EReal)) :
    val_main_v15 (F := Ideal) x0 x1 x2 x3 x4 = Cert.Spec.G x0 x1 x2 x3 x4 := by
  funext y
  obtain ⟨b, k, i, j, rfl⟩ : ∃ (b : Fin 2) (k : Fin 8) (i j : Fin 1024), y = ix4 b k i j :=
    ⟨y 0, y 1, y 2, y 3, eq_ix4 y⟩
  rw [Cert.Spec.G_ix4, val_main_v15_apply, idx_out, val_main_v14_apply, val_main_v11_apply, val_main_v13_apply,
    val_main_v12_apply, idx_b2]
  simp only [lidx_second, ridx_second, hidden_at x0 x1 x2 hx hw, Ideal.addf_def]
  rfl

end Cert.RefBridge

end
-- ==== Proof.RefRun.lean ====
/-
  The reference's run, stated with the common specification.

  Every weakly fair execution of the reference terminates with its result array holding, on each device, the
  specification's function of the five argument arrays as they were at launch, and the arguments unchanged —
  provided the points and the first-layer weights at launch are finite (the distribution of the first contraction over
  the pairwise subtraction is an identity of the reals only).
-/
import proofs.«168165_j79061757985077_1_alg».proof.Proof.Gen.ReferenceIdeal.Read
import proofs.«168165_j79061757985077_1_alg».proof.Proof.Spec
import proofs.«168165_j79061757985077_1_alg».proof.Proof.RefValue

noncomputable section

namespace Cert.RefBridge

open Cert.ReferenceIdeal Cert.ReferenceIdeal.Gen Idealize.ShloMosaic Idealize.ShloMosaic.TcCoe Idealize.SL.Sem
  Idealize.ShloMosaic.StableHlo

/-- From any memory whose points and first-layer weights are finite, the reference ends with the specification's array
    of the launch arguments in its result, and the arguments unchanged. -/
theorem run (m' : (ℓ : Loc nD τ sig) → Buf (Elt Ideal) ℓ) (ρ' : Dev nD → PrngReg)
    (hx : ∀ (c : Dev nD) (i : S2x3x1024.Idx), ∃ r : ℝ, m' ((c.tc : Thread nD τ).loc main_arg0) i = (r : EReal))
    (hw : ∀ (c : Dev nD) (i : S3x64.Idx), ∃ r : ℝ, m' ((c.tc : Thread nD τ).loc main_arg1) i = (r : EReal)) :
    θ_run defs (onTc (τ := τ) (main (F := Ideal))) ⟨m', fun _ => 0, ρ'⟩ fun r => ∀ c : Dev nD,
      r.2.mem ((c.tc : Thread nD τ).loc main_v15)
          = Cert.Spec.G (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono
    (fun _ h c => ⟨(h c).1.trans ((Cert.ReferenceIdeal.Read.val_main_v15_eq _ _ _ _ _).trans
        (ref_eq_G _ _ _ _ _ (hx c) (hw c))), (h c).2⟩)
    (Cert.ReferenceIdeal.Value.run (F := Ideal) m' ρ')

end Cert.RefBridge

end
-- ==== Proof.RefFinite.lean ====
/-
  Finiteness out of the precondition.

  The precondition is the conjunction, over the five argument arrays, of "every entry's absolute value is below +∞".
  On the extended reals an element whose absolute value `max x (−x)` is below `⊤` is neither `⊤` nor `⊥`: it is a real.
  Only the first two conjuncts (the points and the first weight matrix) are needed downstream.
-/
import proofs.«168165_j79061757985077_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.RefBridge

open Idealize.ShloMosaic

/-- The scalar shape has one index. -/
instance subsingleton_scalar_idx : Subsingleton Cert.Pre_finite_inputs.S_.Idx :=
  ⟨fun a b => funext fun d => d.elim0⟩

/-- The word `0x7F800000` denotes `+∞`. -/
theorem ofBits_inf_f32 : Ideal.ofBits .f32 0x7F800000#32 = (⊤ : EReal) := by
  simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- THE PRECONDITION GIVES FINITENESS: when the conjunction of the five "every entry is finite" tests is one, every
    point coordinate and every first-layer weight is a real. The conjunction is split bit by bit, each array test is
    read at an index, and the element test is the comparison above. -/
theorem finite_of_pre [Cert.Pre_finite_inputs.Facts]
    (x0 : FVec Ideal Cert.Pre_finite_inputs.S2x3x1024 .f32) (x1 : FVec Ideal Cert.Pre_finite_inputs.S3x64 .f32)
    (x2 : FVec Ideal Cert.Pre_finite_inputs.S64 .f32) (x3 : FVec Ideal Cert.Pre_finite_inputs.S64x8 .f32)
    (x4 : FVec Ideal Cert.Pre_finite_inputs.S8 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn, Cert.Pre_finite_inputs.fn_part1] at h0
  obtain ⟨h0123, _⟩ := IntOp.andi_eq_one.1 h0
  obtain ⟨h012, _⟩ := IntOp.andi_eq_one.1 h0123
  obtain ⟨h01, _⟩ := IntOp.andi_eq_one.1 h012
  obtain ⟨ha, hb⟩ := IntOp.andi_eq_one.1 h01
  exact ⟨fun i => real_of_abs_lt_inf _ (Host.reduce_andi_all _ _ _ _ _ ha i),
    fun i => real_of_abs_lt_inf _ (Host.reduce_andi_all _ _ _ _ _ hb i)⟩

end Cert.RefBridge

end
-- ==== Proof.RefClaim.lean ====
/-
  The reference's half of the algebraic claim.

  From a kernel-side memory satisfying the finiteness precondition and a reference-side memory agreeing with it on the
  five arguments, the reference terminates with its result equal to the common specification's array of the
  KERNEL-side arguments, and its own arguments unchanged. Finiteness of the points and first-layer weights is read out of
  the precondition and carried across the agreement.
-/
import proofs.«168165_j79061757985077_1_alg».proof.Defs
import proofs.«168165_j79061757985077_1_alg».proof.Proof.Gen.Pre_finite_inputs
import proofs.«168165_j79061757985077_1_alg».proof.Proof.RefRun
import proofs.«168165_j79061757985077_1_alg».proof.Proof.RefFinite

noncomputable section

namespace Cert.RefBridge

open Idealize.ShloMosaic Idealize.ShloMosaic.TcCoe Idealize.SL.Sem

/-- The reference run of the algebraic claim, with the result stated as the specification of the kernel-side arguments. -/
theorem run_of_pre
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v15)
            = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
                (m ((c.tc : Thread Cert.KernelIdeal.nD Cert.KernelIdeal.τ).loc Cert.KernelIdeal.main_arg2)) (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  have hfin := fun c : Dev Cert.KernelIdeal.nD => finite_of_pre _ _ _ _ _ (hpre c)
  refine (θ_run _ _ _).mono (fun _ h c => ⟨?_, (h c).2⟩)
    (run m' ρ' (fun c i => by rw [(hagree c).1]; exact (hfin c).1 i)
      (fun c i => by rw [(hagree c).2.1]; exact (hfin c).2 i))
  rw [(h c).1, (hagree c).1, (hagree c).2.1, (hagree c).2.2.1, (hagree c).2.2.2.1, (hagree c).2.2.2.2]

end Cert.RefBridge

end
-- ==== Proof.lean ====
/-
  The five claims about a pairwise relative-position bias kernel and its reference.

  For points `xyz[b, :, n]` in three dimensions, the kernel computes for every batch `b`, head `k` and pair of points
  `(i, j)` the value `Σ_h max(A[b,h,j] − A[b,h,i] + b1[h], 0) · W2[h,k] + b2[k]`, where `A[b,h,n] = Σ_c W1[c,h] · xyz[b,c,n]`
  is the projection of point `n` onto hidden unit `h`: it uses that the first layer is linear, projecting each point once
  and subtracting projections. The reference subtracts the points first, `rel = xyz[b,:,j] − xyz[b,:,i]`, and projects the
  difference. On the extended reals the two agree when the coordinates and the first weights are finite, which the
  precondition gives: then `Σ_c (x_j − x_i)[c] · W1[c,h] = A[b,h,j] − A[b,h,i]` is distributivity in the real numbers.

  The three frames: each program runs to its end on every weakly fair schedule and leaves its arguments unchanged. The
  kernel's pipeline stages the coordinate array through two windows (the `i`-tile and the `j`-tile), so the launch deals
  the array's share between them. The idealized kernel is the kernel's own text read on the extended reals (no rewrite),
  so the idealization claim is trivial. For the value claim both runs end with the result array at one function of the
  arguments (`Cert.Spec.G`).
-/
import proofs.«168165_j79061757985077_1_alg».proof.Defs
import proofs.«168165_j79061757985077_1_alg».proof.Proof.Gen.Kernel
import proofs.«168165_j79061757985077_1_alg».proof.Proof.Gen.KernelIdeal
import proofs.«168165_j79061757985077_1_alg».proof.Proof.Gen.ReferenceIdeal
import proofs.«168165_j79061757985077_1_alg».proof.Proof.Gen.Pre_finite_inputs
import proofs.«168165_j79061757985077_1_alg».proof.Proof.Gen.ReferenceIdeal.Run
import proofs.«168165_j79061757985077_1_alg».proof.Proof.KernelLaunch
import proofs.«168165_j79061757985077_1_alg».proof.Proof.KernelIdealLaunch
import proofs.«168165_j79061757985077_1_alg».proof.Proof.KernelIdealResult
import proofs.«168165_j79061757985077_1_alg».proof.Proof.RefClaim
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Cert.Spec.G` of the kernel side's argument arrays: the kernel's by reading
    its blocks back, the reference's by the real-number law under the finiteness the precondition states. -/
theorem algebraic : Cert.algebraic_KernelIdeal_ReferenceIdeal := by
  intro m ρ m' ρ' hpre hagree
  exact ⟨_, Cert.KernelIdeal.HandValue.run_G m ρ, Cert.RefBridge.run_of_pre m m' ρ' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
